-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩

class Facts : Prop where
  bcast_S_S1024x16x128 : S_.BroadcastsInDim S1024x16x128 (![] : Fin 0 → Fin S1024x16x128.rank)
  reducesTo_S1024x16x128_S_d0_1_2 : S1024x16x128.ReducesTo [0, 1, 2] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v50 : FVec F S256 .f32) : IVec S_ 1 :=
  let main_cst_19 : FVec F S_ .f32 := constant S_ .f32 0x00000000#32
  let main_v51 : FVec F S256 .f32 := broadcastInDim S256 ![] bcast_S_S256 main_cst_19
  let main_v52 : IVec S256 1 := cmpf .ogt main_v50 main_v51
  let main_c_20 : IVec S_ 1 := constantI S_ 1 1#1
  let main_v53 : IVec S_ 1 := (fun x v => Host.reduce IntOp.andi x v reducesTo_S256_S_d0 h_S_) main_v52 main_c_20
  let main_v54 : IVec S_ 1 := andi main_v48 main_v53
  main_v54

def fn_part2 {F : FTy → Type} [FloatOps F] (main_arg8 : FVec F S256 .f32) (main_arg9 : FVec F S512x512 .f32) (main_arg10 : FVec F S512 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_cst_18 : FVec F S_ .f32 := constant S_ .f32 0x3727C5AC#32
  let main_v49 : FVec F S256 .f32 := broadcastInDim S256 ![] bcast_S_S256 main_cst_18
  let main_v50 : FVec F S256 .f32 := addf main_arg8 main_v49
  fn_part3 (F := F) main_v48 main_v50

def fn_part1 {F : FTy → Type} [FloatOps F] (main_arg5 : FVec F S256 .f32) (main_arg6 : FVec F S256 .f32) (main_arg7 : FVec F S256 .f32) (main_arg8 : FVec F S256 .f32) (main_arg9 : FVec F S512x512 .f32) (main_arg10 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : IVec S1024x16 32) (main_arg1 : FVec F S1024x16x128 .f32) (main_arg2 : FVec F S1000x128 .f32) (main_arg3 : FVec F S256x256 .f32) (main_arg4 : FVec F S256 .f32) (main_arg5 : FVec F S256 .f32) (main_arg6 : FVec F S256 .f32) (main_arg7 : FVec F S256 .f32) (main_arg8 : FVec F S256 .f32) (main_arg9 : FVec F S512x512 .f32) (main_arg10 : FVec F S512 .f32) : IVec S_ 1 :=
  let main_v0 : FVec F S1024x16x128 .f32 := Host.absf main_arg1
  let main_cst : FVec F S_ .f32 := constant S_ .f32 0x7F800000#32
  let main_v1 : FVec F S1024x16x128 .f32 := broadcastInDim S1024x16x128 ![] bcast_S_S1024x16x128 main_cst
  let main_v2 : IVec S1024x16x128 1 := cmpf .olt main_v0 main_v1
  let main_c : IVec S_ 1 := constantI S_ 1 1#1
  let main_v3 : IVec S_ 1 := (fun x v => Host.reduce IntOp.andi x v reducesTo_S1024x16x128_S_d0_1_2 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩
abbrev S1024x16x1 : Shape := ⟨3, ![1024, 16, 1]⟩
abbrev S256x128 : Shape := ⟨2, ![256, 128]⟩
abbrev S128x256 : Shape := ⟨2, ![128, 256]⟩
abbrev S512x256 : Shape := ⟨2, ![512, 256]⟩
abbrev S256x512 : Shape := ⟨2, ![256, 512]⟩
abbrev S1024x512 : Shape := ⟨2, ![1024, 512]⟩
abbrev S64x16x128 : Shape := ⟨3, ![64, 16, 128]⟩
abbrev S64x512 : Shape := ⟨2, ![64, 512]⟩
abbrev S1024x128 : Shape := ⟨2, ![1024, 128]⟩
abbrev S1024x256 : Shape := ⟨2, ![1024, 256]⟩
abbrev S1x256 : Shape := ⟨2, ![1, 256]⟩
abbrev S64x16x512 : Shape := ⟨3, ![64, 16, 512]⟩
abbrev S1x512 : Shape := ⟨2, ![1, 512]⟩

abbrev nBuf : Space → Nat
  | .hbm => 42
  | .vmem => 13
  | .smem => 0
  | _ => 0

abbrev bufTy : (tb : Table) → Fin (tcTables nBuf tb) → BufTy
  | .hbm, ⟨0, _⟩ => ⟨S1024x16, .i32⟩
  | .hbm, ⟨1, _⟩ => ⟨S1024x16x128, .f32⟩
  | .hbm, ⟨2, _⟩ => ⟨S1000x128, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S1000x128, .bf16⟩
  | .hbm, ⟨12, _⟩ => ⟨S_, .i32⟩
  | .hbm, ⟨13, _⟩ => ⟨S1024x16, .i32⟩
  | .hbm, ⟨14, _⟩ => ⟨S1024x16, .i1⟩
  | .hbm, ⟨15, _⟩ => ⟨S_, .i32⟩
  | .hbm, ⟨16, _⟩ => ⟨S1024x16, .i32⟩
  | .hbm, ⟨17, _⟩ => ⟨S1024x16, .i32⟩
  | .hbm, ⟨18, _⟩ => ⟨S1024x16, .i32⟩
  | .hbm, ⟨19, _⟩ => ⟨S1024x16x1, .i32⟩
  | .hbm, ⟨20, _⟩ => ⟨S1024x16x128, .bf16⟩
  | .hbm, ⟨21, _⟩ => ⟨S256x128, .f32⟩
  | .hbm, ⟨22, _⟩ => ⟨S128x256, .f32⟩
  | .hbm, ⟨23, _⟩ => ⟨S128x256, .bf16⟩
  | .hbm, ⟨24, _⟩ => ⟨S256x128, .f32⟩
  | .hbm, ⟨25, _⟩ => ⟨S128x256, .f32⟩
  | .hbm, ⟨26, _⟩ => ⟨S128x256, .bf16⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S512x256, .f32⟩
  | .hbm, ⟨36, _⟩ => ⟨S512x256, .f32⟩
  | .hbm, ⟨37, _⟩ => ⟨S256x512, .f32⟩
  | .hbm, ⟨38, _⟩ => ⟨S256x512, .bf16⟩
  | .hbm, ⟨39, _⟩ => ⟨S256x512, .f32⟩
  | .hbm, ⟨40, _⟩ => ⟨S256x512, .bf16⟩
  | .hbm, ⟨41, _⟩ => ⟨S1024x512, .f32⟩
  | .local _ .vmem, ⟨0, _⟩ => ⟨S64x16x128, .bf16⟩
  | .local _ .vmem, ⟨1, _⟩ => ⟨S64x16x128, .bf16⟩
  | .local _ .vmem, ⟨2, _⟩ => ⟨S64x16x128, .f32⟩
  | .local _ .vmem, ⟨3, _⟩ => ⟨S64x16x128, .f32⟩
  | .local _ .vmem, ⟨4, _⟩ => ⟨S128x256, .bf16⟩
  | .local _ .vmem, ⟨5, _⟩ => ⟨S128x256, .bf16⟩
  | .local _ .vmem, ⟨6, _⟩ => ⟨S256, .f32⟩
  | .local _ .vmem, ⟨7, _⟩ => ⟨S256, .f32⟩
  | .local _ .vmem, ⟨8, _⟩ => ⟨S256x512, .bf16⟩
  | .local _ .vmem, ⟨9, _⟩ => ⟨S256x512, .bf16⟩
  | .local _ .vmem, ⟨10, _⟩ => ⟨S512, .f32⟩
  | .local _ .vmem, ⟨11, _⟩ => ⟨S64x512, .f32⟩
  | .local _ .vmem, ⟨12, _⟩ => ⟨S64x512, .f32⟩
  | _, _ => ⟨S1024x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  slices_S256x256_S256x128_0_0 : S256x256.Slices ![0, 0] S256x128
  transposes_S256x128_S128x256_1_0 : S256x128.Transposes [1, 0] S128x256
  slices_S256x256_S256x128_0_128 : S256x256.Slices ![0, 128] S256x128
  bcast_S_S256 : S_.BroadcastsInDim S256 (![] : Fin 0 → Fin S256.rank)
  slices_S512x512_S512x256_0_0 : S512x512.Slices ![0, 0] S512x256
  slices_S512x512_S512x256_0_256 : S512x512.Slices ![0, 256] S512x256
  transposes_S512x256_S256x512_1_0 : S512x256.Transposes [1, 0] S256x512
  inb_S64x16x128_S64x16x128_0_0_0 : ∀ a, (![0, 0, 0] : Fin 3 → Nat) a + S64x16x128.size a ≤ S64x16x128.size a
  h_S64x16x128 : 0 < S64x16x128.numel
  shapeCasts_S64x16x128_S64x16x128 : S64x16x128.ShapeCasts S64x16x128
  shapeCasts_S64x16x128_S1024x128 : S64x16x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S64x16x512 : S1024x512.ShapeCasts S64x16x512
  reduces_S64x16x512_S64x512 : S64x16x512.Reduces [1] S64x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  gather_S1000x128_S1024x16x1_S1024x16x128_2_0_n_n_0_2_1128_wf : GatherDims.WF S1000x128 S1024x16x1 S1024x16x128 [2] [0] [] [0] [] 2 ![1, 128]
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x128.size a ≤ S1024x16x128.size a
  hwx0_0 : ∀ i : grid0.Coords, EltTy.bits .bf16 = 32 ∨ (Rect.block (s := S1024x16x128) S64x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x128.size a ≤ S1024x16x128.size a
  hwx0_1 : ∀ i : grid0.Coords, EltTy.bits .f32 = 32 ∨ (Rect.block (s := S1024x16x128) S64x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x512.size a ≤ S1024x512.size a
  hwx0_9 : ∀ i : grid0.Coords, EltTy.bits .f32 = 32 ∨ (Rect.block (s := S1024x512) S64x512.size (cc0_transform_9 i) (hinb0_9 i)).WholeWords (EltTy.packing .f32)

variable [Facts₀]

def gather_S1000x128_S1024x16x1_S1024x16x128_2_0_n_n_0_2_1128 : GatherDims S1000x128 S1024x16x1 S1024x16x128 where
  offsetDims := [2]
  collapsedSliceDims := [0]
  operandBatchingDims := []
  startIndicesBatchingDims := []
  startIndexMap := [0]
  indexVectorDim := 2
  sliceSizes := ![1, 128]
  wf := gather_S1000x128_S1024x16x1_S1024x16x128_2_0_n_n_0_2_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v7) S64x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩
abbrev S1024x16x1 : Shape := ⟨3, ![1024, 16, 1]⟩
abbrev S1024x16x256 : Shape := ⟨3, ![1024, 16, 256]⟩
abbrev S1x1x256 : Shape := ⟨3, ![1, 1, 256]⟩
abbrev S512x256 : Shape := ⟨2, ![512, 256]⟩
abbrev S1024x16x512 : Shape := ⟨3, ![1024, 16, 512]⟩
abbrev S1024x16x1x512 : Shape := ⟨4, ![1024, 16, 1, 512]⟩
abbrev S1024x1x16x512 : Shape := ⟨4, ![1024, 1, 16, 512]⟩
abbrev S1024x16x16x512 : Shape := ⟨4, ![1024, 16, 16, 512]⟩
abbrev S1x1x1x512 : Shape := ⟨4, ![1, 1, 1, 512]⟩
abbrev S1024x512 : Shape := ⟨2, ![1024, 512]⟩

abbrev nBuf : Space → Nat
  | .hbm => 61
  | .vmem => 0
  | .smem => 0
  | _ => 0

abbrev bufTy : (tb : Table) → Fin (tcTables nBuf tb) → BufTy
  | .hbm, ⟨0, _⟩ => ⟨S1024x16, .i32⟩
  | .hbm, ⟨1, _⟩ => ⟨S1024x16x128, .f32⟩
  | .hbm, ⟨2, _⟩ => ⟨S1000x128, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S_, .i32⟩
  | .hbm, ⟨12, _⟩ => ⟨S1024x16, .i32⟩
  | .hbm, ⟨13, _⟩ => ⟨S1024x16, .i1⟩
  | .hbm, ⟨14, _⟩ => ⟨S_, .i32⟩
  | .hbm, ⟨15, _⟩ => ⟨S1024x16, .i32⟩
  | .hbm, ⟨16, _⟩ => ⟨S1024x16, .i32⟩
  | .hbm, ⟨17, _⟩ => ⟨S1024x16, .i32⟩
  | .hbm, ⟨18, _⟩ => ⟨S1024x16x1, .i32⟩
  | .hbm, ⟨19, _⟩ => ⟨S1024x16x128, .f32⟩
  | .hbm, ⟨20, _⟩ => ⟨S1024x16x256, .f32⟩
  | .hbm, ⟨21, _⟩ => ⟨S1024x16x256, .f32⟩
  | .hbm, ⟨22, _⟩ => ⟨S1x1x256, .f32⟩
  | .hbm, ⟨23, _⟩ => ⟨S1024x16x256, .f32⟩
  | .hbm, ⟨24, _⟩ => ⟨S1024x16x256, .f32⟩
  | .hbm, ⟨25, _⟩ => ⟨S1x1x256, .f32⟩
  | .hbm, ⟨26, _⟩ => ⟨S1024x16x256, .f32⟩
  | .hbm, ⟨27, _⟩ => ⟨S1024x16x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S1x1x256, .f32⟩
  | .hbm, ⟨34, _⟩ => ⟨S1024x16x256, .f32⟩
  | .hbm, ⟨35, _⟩ => ⟨S1024x16x256, .f32⟩
  | .hbm, ⟨36, _⟩ => ⟨S1x1x256, .f32⟩
  | .hbm, ⟨37, _⟩ => ⟨S1024x16x256, .f32⟩
  | .hbm, ⟨38, _⟩ => ⟨S1024x16x256, .f32⟩
  | .hbm, ⟨39, _⟩ => ⟨S_, .f32⟩
  | .hbm, ⟨40, _⟩ => ⟨S1024x16x256, .f32⟩
  | .hbm, ⟨41, _⟩ => ⟨S1024x16x256, .f32⟩
  | .hbm, ⟨42, _⟩ => ⟨S512x256, .f32⟩
  | .hbm, ⟨43, _⟩ => ⟨S512x256, .f32⟩
  | .hbm, ⟨44, _⟩ => ⟨S1024x16x512, .f32⟩
  | .hbm, ⟨45, _⟩ => ⟨S1024x16x512, .f32⟩
  | .hbm, ⟨46, _⟩ => ⟨S1024x16x1x512, .f32⟩
  | .hbm, ⟨47, _⟩ => ⟨S1024x1x16x512, .f32⟩
  | .hbm, ⟨48, _⟩ => ⟨S1024x16x16x512, .f32⟩
  | .hbm, ⟨49, _⟩ => ⟨S1024x16x16x512, .f32⟩
  | .hbm, ⟨50, _⟩ => ⟨S1024x16x16x512, .f32⟩
  | .hbm, ⟨51, _⟩ => ⟨S1x1x1x512, .f32⟩
  | .hbm, ⟨52, _⟩ => ⟨S1024x16x16x512, .f32⟩
  | .hbm, ⟨53, _⟩ => ⟨S1024x16x16x512, .f32⟩
  | .hbm, ⟨54, _⟩ => ⟨S_, .f32⟩
  | .hbm, ⟨55, _⟩ => ⟨S1024x16x16x512, .f32⟩
  | .hbm, ⟨56, _⟩ => ⟨S1024x16x16x512, .f32⟩
  | .hbm, ⟨57, _⟩ => ⟨S_, .f32⟩
  | .hbm, ⟨58, _⟩ => ⟨S1024x16x512, .f32⟩
  | .hbm, ⟨59, _⟩ => ⟨S_, .f32⟩
  | .hbm, ⟨60, _⟩ => ⟨S1024x512, .f32⟩
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  concatenates_S1024x16x128_S1024x16x128_S1024x16x256_d2 : Shape.Concatenates [S1024x16x128, S1024x16x128] S1024x16x256 2
  bcast_S256_S1x1x256_2 : S256.BroadcastsInDim S1x1x256 (![2] : Fin 1 → Fin S1x1x256.rank)
  bcast_S1x1x256_S1024x16x256_0_1_2 : S1x1x256.BroadcastsInDim S1024x16x256 (![0, 1, 2] : Fin 3 → Fin S1024x16x256.rank)
  bcast_S_S256 : S_.BroadcastsInDim S256 (![] : Fin 0 → Fin S256.rank)
  bcast_S_S1024x16x256 : S_.BroadcastsInDim S1024x16x256 (![] : Fin 0 → Fin S1024x16x256.rank)
  slices_S512x512_S512x256_0_0 : S512x512.Slices ![0, 0] S512x256
  slices_S512x512_S512x256_0_256 : S512x512.Slices ![0, 256] S512x256
  bcast_S1024x16x512_S1024x16x1x512_0_1_3 : S1024x16x512.BroadcastsInDim S1024x16x1x512 (![0, 1, 3] : Fin 3 → Fin S1024x16x1x512.rank)
  bcast_S1024x16x512_S1024x1x16x512_0_2_3 : S1024x16x512.BroadcastsInDim S1024x1x16x512 (![0, 2, 3] : Fin 3 → Fin S1024x1x16x512.rank)
  bcast_S1024x16x1x512_S1024x16x16x512_0_1_2_3 : S1024x16x1x512.BroadcastsInDim S1024x16x16x512 (![0, 1, 2, 3] : Fin 4 → Fin S1024x16x16x512.rank)
  bcast_S1024x1x16x512_S1024x16x16x512_0_1_2_3 : S1024x1x16x512.BroadcastsInDim S1024x16x16x512 (![0, 1, 2, 3] : Fin 4 → Fin S1024x16x16x512.rank)
  bcast_S512_S1x1x1x512_3 : S512.BroadcastsInDim S1x1x1x512 (![3] : Fin 1 → Fin S1x1x1x512.rank)
  bcast_S1x1x1x512_S1024x16x16x512_0_1_2_3 : S1x1x1x512.BroadcastsInDim S1024x16x16x512 (![0, 1, 2, 3] : Fin 4 → Fin S1024x16x16x512.rank)
  bcast_S_S1024x16x16x512 : S_.BroadcastsInDim S1024x16x16x512 (![] : Fin 0 → Fin S1024x16x16x512.rank)
  reducesTo_S1024x16x16x512_S1024x16x512_d2 : S1024x16x16x512.ReducesTo [2] S1024x16x512
  h_S_ : 0 < S_.numel
  reducesTo_S1024x16x512_S1024x512_d1 : S1024x16x512.ReducesTo [1] S1024x512
  gather_S1000x128_S1024x16x1_S1024x16x128_2_0_n_n_0_2_1128_wf : GatherDims.WF S1000x128 S1024x16x1 S1024x16x128 [2] [0] [] [0] [] 2 ![1, 128]
  dot_S1024x16x256_S256x256_S1024x16x256_2_1_01_0_n_n_wf : DotDims.WF S1024x16x256 S256x256 S1024x16x256 [2] [1] [0, 1] [0] [] []
  dot_S1024x16x256_S512x256_S1024x16x512_2_1_01_0_n_n_wf : DotDims.WF S1024x16x256 S512x256 S1024x16x512 [2] [1] [0, 1] [0] [] []

variable [Facts₀]

def gather_S1000x128_S1024x16x1_S1024x16x128_2_0_n_n_0_2_1128 : GatherDims S1000x128 S1024x16x1 S1024x16x128 where
  offsetDims := [2]
  collapsedSliceDims := [0]
  operandBatchingDims := []
  startIndicesBatchingDims := []
  startIndexMap := [0]
  indexVectorDim := 2
  sliceSizes := ![1, 128]
  wf := gather_S1000x128_S1024x16x1_S1024x16x128_2_0_n_n_0_2_1128_wf
def dot_S1024x16x256_S256x256_S1024x16x256_2_1_01_0_n_n : DotDims S1024x16x256 S256x256 S1024x16x256 where
  lhsContracting := [2]
  rhsContracting := [1]
  lhsNonContracting := [0, 1]
  rhsNonContracting := [0]
  lhsBatch := []
  rhsBatch := []
  wf := dot_S1024x16x256_S256x256_S1024x16x256_2_1_01_0_n_n_wf
def dot_S1024x16x256_S512x256_S1024x16x512_2_1_01_0_n_n : DotDims S1024x16x256 S512x256 S1024x16x512 where
  lhsContracting := [2]
  rhsContracting := [1]
  lhsNonContracting := [0, 1]
  rhsNonContracting := [0]
  lhsBatch := []
  rhsBatch := []
  wf := dot_S1024x16x256_S512x256_S1024x16x512_2_1_01_0_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibMinReduce.lean ====
/-
  Minimum reductions on the extended reals, by their universal property: a value is below a minimum exactly when it
  is below every element (and below the starting value). Stated for a vector minimum along one axis, for the host's
  minimum of a whole array down to a scalar, and joined by the fact that the square root is monotone, so that the
  square root of a least element is the least of the square roots.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The f32 pattern of +infinity is the top element. -/
theorem ofBits_inf : Ideal.ofBits .f32 0x7F800000#32 = (⊤ : EReal) := by
  simp [Ideal.ofBits, Ideal.ieee]

/-- The f32 pattern of 1.0 is one. -/
theorem ofBits_one : Ideal.ofBits .f32 0x3F800000#32 = (1 : EReal) := by
  simp [Ideal.ofBits, Ideal.ieee, -EReal.coe_mul]; norm_num

/-- The square root of the extended reals (bottom below zero) is monotone. -/
theorem sqrt_mono : Monotone Ideal.sqrt := by
  intro a b hab
  induction a using EReal.rec with
  | bot => exact bot_le
  | top =>
    have hb : b = ⊤ := top_le_iff.mp hab
    subst hb; exact le_rfl
  | coe r =>
    induction b using EReal.rec with
    | bot => exact absurd hab (by simp)
    | top => exact le_top
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

/-- If `M` is the greatest lower bound of finitely many nonnegative values `d i` and `R` the greatest lower bound of
    their square roots, then `R` is the square root of `M` (clamped at zero, which changes nothing): the least value is
    attained, and the square root keeps order. -/
theorem sqrt_glb {ι : Type*} [Finite ι] [Nonempty ι] (d : ι → EReal) (hd : ∀ i, 0 ≤ d i) (M R : EReal)
    (hM : ∀ z, z ≤ M ↔ ∀ i, z ≤ d i) (hR : ∀ z, z ≤ R ↔ ∀ i, z ≤ Ideal.sqrt (d i)) :
    Ideal.sqrt (max M 0) = R := by
  have hM0 : 0 ≤ M := (hM 0).mpr hd
  rw [max_eq_left hM0]
  obtain ⟨i0, hi0⟩ := Finite.exists_min d
  have hMi : M = d i0 := le_antisymm ((hM M).mp le_rfl i0) ((hM _).mpr hi0)
  apply le_antisymm
  · exact (hR _).mpr fun i => sqrt_mono ((hM M).mp le_rfl i)
  · rw [hMi]; exact (hR R).mp le_rfl i0

/-- A vector minimum along one axis, from the accumulator's value: below it is below the accumulator and below every
    element of the reduced line. -/
theorem le_multiReduction_min {s t : Shape} {a : Fin s.rank} {φ : FTy} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  classical
  rw [multiReduction_minimumf_eq_fold, h.fold_filter_drop_single]
  refine (Finset.le_fold_min (s := (Finset.univ : Finset (Fin (s.size a)))) (f := src ∘ h.lift j)
    (b := Ideal.ofBits φ acc) z).trans ?_
  simp only [Finset.mem_univ, true_implies, Function.comp_apply]

/-- Over row `r` of an `[R, W]` array, the index with column `k` inserted is `(r, k)`. -/
theorem lift_row {R W : ℕ} (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- Down the one column of an `[R, 1]` array, the index with row `k` inserted is `(k, 0)`. -/
theorem lift_col {R : ℕ} (h : (⟨2, ![R, 1]⟩ : Shape).Reduces [0] ⟨1, ![1]⟩) (j : (⟨1, ![1]⟩ : Shape).Idx) (k : Fin R) :
    h.lift j k = ix2 k (0 : Fin 1) := by
  funext c
  match c with
  | ⟨0, _⟩ => exact Fin.ext rfl
  | ⟨1, hc⟩ => exact Fin.ext (by
      have hlt : (h.lift j k ⟨1, hc⟩).val < 1 := (h.lift j k ⟨1, hc⟩).isLt
      show (h.lift j k ⟨1, hc⟩).val = 0
      omega)

/-- A row minimum of an `[R, W]` array from +infinity: below it is below every entry of the row. -/
theorem le_rowMin {R W : ℕ} (src : FVec Ideal ⟨2, ![R, W]⟩ .f32) (h : (⟨2, ![R, W]⟩ : Shape).Reduces [1] ⟨1, ![R]⟩)
    (hφ : FKind.Formats .f32) (hacc : (0x7F800000#32 : BitVec 32) = FKind.minimumf.neutral .f32 hφ) (r : Fin R) (z : EReal) :
    z ≤ multiReduction .minimumf [1] ⟨1, ![R]⟩ src 0x7F800000#32 h hφ hacc (ix1 r) ↔ ∀ p : Fin W, z ≤ src (ix2 r p) := by
  refine (le_multiReduction_min src _ h hφ hacc (ix1 r) z).trans ?_
  rw [ofBits_inf]
  constructor
  · intro hh p
    have := hh.2 p
    rwa [lift_row h r p] at this
  · intro hh
    exact ⟨le_top, fun k => by rw [lift_row h r k]; exact hh k⟩

/-- The minimum down the one column of an `[R, 1]` array from +infinity: below it is below every entry. -/
theorem le_colMin {R : ℕ} (src : FVec Ideal ⟨2, ![R, 1]⟩ .f32) (h : (⟨2, ![R, 1]⟩ : Shape).Reduces [0] ⟨1, ![1]⟩)
    (hφ : FKind.Formats .f32) (hacc : (0x7F800000#32 : BitVec 32) = FKind.minimumf.neutral .f32 hφ)
    (j : (⟨1, ![1]⟩ : Shape).Idx) (z : EReal) :
    z ≤ multiReduction .minimumf [0] ⟨1, ![1]⟩ src 0x7F800000#32 h hφ hacc j ↔ ∀ r : Fin R, z ≤ src (ix2 r (0 : Fin 1)) := by
  refine (le_multiReduction_min src _ h hφ hacc j z).trans ?_
  rw [ofBits_inf]
  constructor
  · intro hh r
    have := hh.2 r
    rwa [lift_col h j r] at this
  · intro hh
    exact ⟨le_top, fun k => by rw [lift_col h j k]; exact hh k⟩

/-- The host's minimum of a whole array down to a scalar, from an initial value: below it is below the initial value
    and below every element. -/
theorem le_hostReduce_min {s u : Shape} {axes : List (Fin s.rank)} (x : s.Idx → EReal) (init : u.Idx → EReal)
    (h : s.ReducesTo axes ⟨0, ![]⟩) (hu : 0 < u.numel) (j : (⟨0, ![]⟩ : Shape).Idx) (z : EReal) :
    z ≤ Host.reduce (FloatOps.minimumf (F := Ideal) (φ := .f32)) x init h hu j
      ↔ z ≤ init (Shape.Idx.first hu) ∧ ∀ i : s.Idx, z ≤ x i := by
  classical
  rw [Host.reduce_eq_fold]
  have hall : (Finset.univ.filter fun i : s.Idx => h.drop i = j) = Finset.univ :=
    Finset.filter_true_of_mem fun i _ => funext fun b => b.elim0
  rw [hall]
  refine (Finset.le_fold_min (s := (Finset.univ : Finset s.Idx)) (f := x)
    (b := init (Shape.Idx.first hu)) z).trans ?_
  simp only [Finset.mem_univ, true_implies]

end Cert.LibMinReduce

end
-- ==== Proof.KBody.lean ====
/-
  The kernel body's arithmetic at one block, read index by index on the extended reals.

  A block holds 64 batch rows of 16 positions each; the body flattens them to 1024 rows `16 p + a`, so that

  * the hidden activation of row `(p, a)`, channel `f`, is
    `max ((Σ_k role(p,a,k)·wr(k,f) + Σ_k value(p,a,k)·wv(k,f)) · scale(f) + bias(f)) 0` (`hid`, `pay2_apply`):
    two products over 128 features each, added, then one affine map per channel and the rectifier;
  * each of the two second-layer products `Σ_f hid(p,a,f)·w(f,q)`, regrouped to `[64, 16, 512]`, is reduced by
    minimum over the 16 positions from `+∞`: the greatest lower bound `⨅ a` of the 16 values (`minRows_apply`);
  * the stored value is `max ((m_i + m_j) + b(q)) 0` (`pay1_apply`).
-/
import proofs.«175066_j28252294873241_2_alg».proof.Proof.Gen.KernelIdeal.Skeleton
import proofs.«175066_j28252294873241_2_alg».proof.Proof.LibPlainDot
import proofs.«175066_j28252294873241_2_alg».proof.Proof.LibMinReduce
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx
open Cert.LibPlainDot

/-- Both first-layer products contract the second axis of `[1024, 128]` with the first of `[128, 256]`. -/
theorem dims_first : dot_S1024x128_S128x256_S1024x256_1_0_0_1_n_n = DotDims.plain 1024 128 256 := rfl
/-- Both second-layer products contract the second axis of `[1024, 256]` with the first of `[256, 512]`. -/
theorem dims_second : dot_S1024x256_S256x512_S1024x512_1_0_0_1_n_n = DotDims.plain 1024 256 512 := rfl

/-- A `[64, 16, K]` array flattened to `[1024, K]`: row `16 p + a` is the old `(p, a)`. -/
theorem flat_rows {α : Type} {K : ℕ} (x : (⟨3, ![64, 16, K]⟩ : Shape).Idx → α)
    (h : (⟨3, ![64, 16, K]⟩ : Shape).ShapeCasts ⟨2, ![1024, K]⟩) (p : Fin 64) (a : Fin 16) (k : Fin K)
    (r : Fin 1024) (hr : r.val = 16 * p.val + a.val) :
    shapeCast ⟨2, ![1024, K]⟩ x h (ix2 r k) = x (ix3 p a k) :=
  shapeCast_apply x h _ _ (by
    rw [Shape.rowMajor_val_three, Shape.rowMajor_val_two]
    show (p.val * 16 + a.val) * K + k.val = r.val * K + k.val
    rw [hr, Nat.mul_comm 16 p.val])

/-- `[1024, K]` rows regrouped to `[64, 16, K]`: entry `(p, a)` is the old row `16 p + a`. -/
theorem group_rows {α : Type} {K : ℕ} (x : (⟨2, ![1024, K]⟩ : Shape).Idx → α)
    (h : (⟨2, ![1024, K]⟩ : Shape).ShapeCasts ⟨3, ![64, 16, K]⟩) (p : Fin 64) (a : Fin 16) (k : Fin K)
    (r : Fin 1024) (hr : r.val = 16 * p.val + a.val) :
    shapeCast ⟨3, ![64, 16, K]⟩ x h (ix3 p a k) = x (ix2 r k) :=
  shapeCast_apply x h _ _ (by
    rw [Shape.rowMajor_val_three, Shape.rowMajor_val_two]
    show r.val * K + k.val = (p.val * 16 + a.val) * K + k.val
    rw [hr, Nat.mul_comm 16 p.val])

/-- Reducing the middle axis of `[A, B, C]`: the index `(r, q)` with coordinate `k` inserted is `(r, k, q)`. -/
theorem lift_mid {A B C : ℕ} (h : (⟨3, ![A, B, C]⟩ : Shape).Reduces [1] ⟨2, ![A, C]⟩) (r : Fin A) (q : Fin C) (k : Fin B) :
    h.lift (ix2 r q) k = ix3 r k q := by
  funext c
  match c with
  | ⟨0, _⟩ => exact Fin.ext rfl
  | ⟨1, _⟩ => exact Fin.ext rfl
  | ⟨2, _⟩ => exact Fin.ext rfl

/-- The hidden activation of position `a` of batch row `p` of a block, channel `f`. -/
def hid (P0 P1 : S64x16x128.Idx → EReal) (P2 P3 : S128x256.Idx → EReal) (P4 P5 : S256.Idx → EReal)
    (p : Fin 64) (a : Fin 16) (f : Fin 256) : EReal :=
  max (((∑ k : Fin 128, P0 (ix3 p a k) * P2 (ix2 k f)) + ∑ k : Fin 128, P1 (ix3 p a k) * P3 (ix2 k f)) * P4 (ix1 f)
    + P5 (ix1 f)) 0

/-- The body's hidden-activation array at flat row `r = 16 p + a`. -/
theorem pay2_apply (P0 P1 : S64x16x128.Idx → EReal) (P2 P3 : S128x256.Idx → EReal) (P4 P5 : S256.Idx → EReal)
    (p : Fin 64) (a : Fin 16) (f : Fin 256) (r : Fin 1024) (hr : r.val = 16 * p.val + a.val) :
    k0_pay2 (F := Ideal) P0 P1 P2 P3 P4 P5 (ix2 r f) = hid P0 P1 P2 P3 P4 P5 p a f := by
  unfold k0_pay2 hid
  simp only [truncf, maximumf, addf, mulf, broadcast, matmul, Ideal.truncf_def, Ideal.maximumf_def, Ideal.addf_def,
    Ideal.mulf_def, dims_first, shapeCast_self]
  rw [matmul_zero_plain, matmul_zero_plain, rowsTimes_apply, rowsTimes_apply]
  simp only [truncf, Ideal.truncf_def, flat_rows _ _ p a _ r hr, broadcastTo_1b_ab_apply, shapeCast_a_1a_apply,
    Ideal.ofBits_def, Ideal.ofBits_zero_f32]

/-- The same at the row written out, whatever the proof of its bound. -/
theorem pay2_row (P0 P1 : S64x16x128.Idx → EReal) (P2 P3 : S128x256.Idx → EReal) (P4 P5 : S256.Idx → EReal)
    (p : Fin 64) (a : Fin 16) (f : Fin 256) (h : 16 * p.val + a.val < 1024) :
    k0_pay2 (F := Ideal) P0 P1 P2 P3 P4 P5 (ix2 (⟨16 * p.val + a.val, h⟩ : Fin 1024) f) = hid P0 P1 P2 P3 P4 P5 p a f :=
  pay2_apply P0 P1 P2 P3 P4 P5 p a f _ rfl

/-- A second-layer product of the hidden activations `H` with `W`, regrouped by batch row and reduced by minimum over
    the 16 positions from `+∞`. -/
def minRows (H : S1024x256.Idx → EReal) (W : S256x512.Idx → EReal) : S64x512.Idx → EReal :=
  multiReduction (F := Ideal) (φ := .f32) .minimumf [1] S64x512
    (shapeCast S64x16x512
      (matmul (F := Ideal) (φ₁ := .bf16) (φ₂ := .bf16) dot_S1024x256_S256x512_S1024x512_1_0_0_1_n_n none H
        (shapeCast S256x512 W shapeCasts_S256x512_S256x512)
        (constant S1024x512 .f32 0x00000000#32)) shapeCasts_S1024x512_S64x16x512)
    0x7F800000#32 reduces_S64x16x512_S64x512 (.inl rfl) rfl

theorem pay3_eq (P0 P1 : S64x16x128.Idx → EReal) (P2 P3 : S128x256.Idx → EReal) (P4 P5 : S256.Idx → EReal)
    (P6 : S256x512.Idx → EReal) :
    k0_pay3 (F := Ideal) P0 P1 P2 P3 P4 P5 P6 = minRows (k0_pay2 (F := Ideal) P0 P1 P2 P3 P4 P5) P6 := rfl

theorem pay4_eq (P0 P1 : S64x16x128.Idx → EReal) (P2 P3 : S128x256.Idx → EReal) (P4 P5 : S256.Idx → EReal)
    (P7 : S256x512.Idx → EReal) :
    k0_pay4 (F := Ideal) P0 P1 P2 P3 P4 P5 P7 = minRows (k0_pay2 (F := Ideal) P0 P1 P2 P3 P4 P5) P7 := rfl

/-- The minimum over positions is the greatest lower bound of the 16 products of that batch row. -/
theorem minRows_apply (H : S1024x256.Idx → EReal) (W : S256x512.Idx → EReal) (p : Fin 64) (q : Fin 512) :
    minRows H W (ix2 p q)
      = ⨅ a : Fin 16, ∑ f : Fin 256, H (ix2 (⟨16 * p.val + a.val, by have := p.isLt; have := a.isLt; omega⟩ : Fin 1024) f) * W (ix2 f q) := by
  refine eq_of_forall_le_iff fun z => ?_
  unfold minRows
  simp only [matmul, dims_second, shapeCast_self]
  rw [matmul_zero_plain]
  refine (Cert.LibMinReduce.le_multiReduction_min _ _ _ _ _ (ix2 p q) z).trans ?_
  rw [Cert.LibMinReduce.ofBits_inf, le_iInf_iff]
  constructor
  · intro h a
    have h2 := h.2 a
    rw [lift_mid, group_rows _ _ p a q ⟨16 * p.val + a.val, by have := p.isLt; have := a.isLt; omega⟩ rfl,
      rowsTimes_apply] at h2
    exact h2
  · intro h
    refine ⟨le_top, fun (a : Fin 16) => ?_⟩
    rw [lift_mid, group_rows _ _ p a q ⟨16 * p.val + a.val, by have := p.isLt; have := a.isLt; omega⟩ rfl,
      rowsTimes_apply]
    exact h a

/-- The stored value: the two minima and the output bias added, then rectified. -/
theorem pay1_apply (v34 v35 : S64x512.Idx → EReal) (v37 : S512.Idx → EReal) (p : Fin 64) (q : Fin 512) :
    k0_pay1 (F := Ideal) v34 v35 v37 (ix2 p q) = max ((v34 (ix2 p q) + v35 (ix2 p q)) + v37 (ix1 q)) 0 := by
  unfold k0_pay1
  simp only [maximumf, addf, broadcast, Ideal.maximumf_def, Ideal.addf_def, broadcastTo_1b_ab_apply,
    shapeCast_a_1a_apply, Ideal.ofBits_def, Ideal.ofBits_zero_f32]

end Cert.KernelIdeal.Body

end
-- ==== Proof.Spec.lean ====
/-
  The algebra that joins the two arrangements of one fact block, on the extended reals.

  * the batch-norm scale `gamma / sqrt(var + eps)` is a real number whenever `gamma` is real and `var + eps` is
    positive (`scale_real`);
  * an affine map with real coefficients may be re-associated around ANY extended real `x`:
    `((x + c) - m) * s + b = x * s + (b + (c - m) * s)` (`affine_fold`) — for a real `x` this is ring
    arithmetic, and an infinite `x` absorbs the real summands on both sides alike;
  * a rectified sum is monotone in each summand, so its least value over all pairs `(i, j)` is its value at the two
    separate least elements: `⨅ i, ⨅ j, max (u i + v j + c) 0 = max ((⨅ i, u i) + (⨅ j, v j) + c) 0`
    (`iInf_relu_add`), with no finiteness hypothesis: only the order is used.
-/
import Idealize.ShloMosaic.PureOps.Ideal

noncomputable section

namespace Cert.FactBlock

open Idealize.ShloMosaic

/-- An extended real that is a real number. -/
def IsReal (x : EReal) : Prop := ∃ r : ℝ, x = (r : EReal)

/-- The batch-norm scale of one channel: `g / sqrt (v + e)`. -/
def scale (e g v : EReal) : EReal := Ideal.div g (Ideal.sqrt (v + e))

/-- The scale is a real number when `g` is and `v + e` is positive: the square root of a positive real is a nonzero
    real, and the square root of `+∞` is `+∞`, whose reciprocal is zero. -/
theorem scale_real (e g v : EReal) (hg : IsReal g) (hv : 0 < v + e) : IsReal (scale e g v) := by
  obtain ⟨gr, rfl⟩ := hg
  unfold scale
  generalize v + e = w at hv
  induction w using EReal.rec with
  | bot => exact absurd hv (by simp)
  | top =>
    refine ⟨0, ?_⟩
    rw [Ideal.sqrt_top, Ideal.div, if_neg (by simp), EReal.inv_top, mul_zero]
    rfl
  | coe r =>
    have hr : 0 < r := by exact_mod_cast hv
    have hs : Real.sqrt r ≠ 0 := (Real.sqrt_pos.mpr hr).ne'
    rw [Ideal.sqrt_coe, if_neg (not_lt.mpr hr.le), Ideal.div_coe hs, ← EReal.coe_mul]
    exact ⟨_, rfl⟩

/-- Re-association of an affine map with real coefficients around any extended real. -/
theorem affine_fold (x c m s b : EReal) (hc : IsReal c) (hm : IsReal m) (hs : IsReal s) (hb : IsReal b) :
    ((x + c) - m) * s + b = x * s + (b + (c - m) * s) := by
  obtain ⟨c, rfl⟩ := hc
  obtain ⟨m, rfl⟩ := hm
  obtain ⟨s, rfl⟩ := hs
  obtain ⟨b, rfl⟩ := hb
  have e1 : ((b : EReal) + ((c : EReal) - (m : EReal)) * (s : EReal)) = ((b + (c - m) * s : ℝ) : EReal) := by
    rw [EReal.coe_add, EReal.coe_mul, EReal.coe_sub]
  rw [e1]
  induction x using EReal.rec with
  | coe x =>
    rw [← EReal.coe_add, ← EReal.coe_sub, ← EReal.coe_mul, ← EReal.coe_add, ← EReal.coe_mul, ← EReal.coe_add]
    exact congrArg _ (by ring)
  | top =>
    rw [EReal.top_add_coe, EReal.top_sub_coe]
    rcases lt_trichotomy s 0 with h | h | h
    · rw [EReal.top_mul_coe_of_neg h, EReal.bot_add, EReal.bot_add]
    · subst h
      rw [EReal.coe_zero, mul_zero, zero_add, zero_add]
      exact congrArg _ (by ring)
    · rw [EReal.top_mul_coe_of_pos h, EReal.top_add_coe, EReal.top_add_coe]
  | bot =>
    rw [EReal.bot_add, EReal.bot_sub]
    rcases lt_trichotomy s 0 with h | h | h
    · rw [EReal.bot_mul_coe_of_neg h, EReal.top_add_coe, EReal.top_add_coe]
    · subst h
      rw [EReal.coe_zero, mul_zero, zero_add, zero_add]
      exact congrArg _ (by ring)
    · rw [EReal.bot_mul_coe_of_pos h, EReal.bot_add, EReal.bot_add]

/-- A value is below the rectified sum at the two least elements exactly when it is below the rectified sum at every
    pair: the least elements are attained, and the rectified sum is monotone in each summand. -/
theorem le_relu_min_add {ι κ : Type*} [Finite ι] [Nonempty ι] [Finite κ] [Nonempty κ]
    (u : ι → EReal) (v : κ → EReal) (mu mv c : EReal)
    (hu : ∀ z, z ≤ mu ↔ ∀ i, z ≤ u i) (hv : ∀ z, z ≤ mv ↔ ∀ j, z ≤ v j) (z : EReal) :
    z ≤ max ((mu + mv) + c) 0 ↔ ∀ i j, z ≤ max ((u i + v j) + c) 0 := by
  obtain ⟨i0, hi0⟩ := Finite.exists_min u
  obtain ⟨j0, hj0⟩ := Finite.exists_min v
  have eu : mu = u i0 := le_antisymm ((hu mu).mp le_rfl i0) ((hu _).mpr hi0)
  have ev : mv = v j0 := le_antisymm ((hv mv).mp le_rfl j0) ((hv _).mpr hj0)
  constructor
  · intro h i j
    exact h.trans (max_le_max (add_le_add (add_le_add ((hu mu).mp le_rfl i) ((hv mv).mp le_rfl j)) le_rfl) le_rfl)
  · intro h
    rw [eu, ev]
    exact h i0 j0

/-- The least rectified sum over all pairs is the rectified sum of the two least elements. -/
theorem iInf_relu_add {ι κ : Type*} [Finite ι] [Nonempty ι] [Finite κ] [Nonempty κ]
    (u : ι → EReal) (v : κ → EReal) (c : EReal) :
    (⨅ i, ⨅ j, max ((u i + v j) + c) 0) = max (((⨅ i, u i) + ⨅ j, v j) + c) 0 := by
  refine eq_of_forall_le_iff fun z => ?_
  simp only [le_iInf_iff]
  exact (le_relu_min_add u v _ _ c (fun _ => le_iInf_iff) (fun _ => le_iInf_iff) z).symm

end Cert.FactBlock

end
-- ==== Proof.KHost.lean ====
/-
  What the region finds in the arrays the host computed before it, read index by index on the extended reals.

  The weight operands are column blocks of the two weight matrices, transposed: entry `(k, f)` of the role-side
  first-layer weight is `conv_w (f, k)`, of the value-side one `conv_w (f, 128 + k)`; entry `(f, g)` of the two
  second-layer weights is `gfcn_w (g, f)` and `gfcn_w (g, 256 + f)`. (Narrowing to a shorter float format changes
  nothing on the extended reals.) The per-channel scale is `gamma / sqrt (var + eps)` and the folded bias
  `beta + (conv_b - mean) * scale`.
-/
import proofs.«175066_j28252294873241_2_alg».proof.Proof.Gen.KernelIdeal.Frame
import proofs.«175066_j28252294873241_2_alg».proof.Proof.Spec
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo Cert.FactBlock

variable (m : (ℓ : Loc nD τ sig) → Buf (Elt Ideal) ℓ)

/-- The epsilon both programs add to the variance. -/
abbrev eps : EReal := Ideal.ofBits .f32 0x3727C5AC#32

/-- The argument arrays on core `c`, as arrays of extended reals (and the integer role ids). -/
abbrev aIds (c : Dev nD) : IVec S1024x16 32 := m ((c : Thread nD τ).loc main_arg0)
abbrev aVal (c : Dev nD) : S1024x16x128.Idx → EReal := m ((c : Thread nD τ).loc main_arg1)
abbrev aTbl (c : Dev nD) : S1000x128.Idx → EReal := m ((c : Thread nD τ).loc main_arg2)
abbrev aCw (c : Dev nD) : S256x256.Idx → EReal := m ((c : Thread nD τ).loc main_arg3)
abbrev aCb (c : Dev nD) : S256.Idx → EReal := m ((c : Thread nD τ).loc main_arg4)
abbrev aGam (c : Dev nD) : S256.Idx → EReal := m ((c : Thread nD τ).loc main_arg5)
abbrev aBet (c : Dev nD) : S256.Idx → EReal := m ((c : Thread nD τ).loc main_arg6)
abbrev aMu (c : Dev nD) : S256.Idx → EReal := m ((c : Thread nD τ).loc main_arg7)
abbrev aVar (c : Dev nD) : S256.Idx → EReal := m ((c : Thread nD τ).loc main_arg8)
abbrev aGw (c : Dev nD) : S512x512.Idx → EReal := m ((c : Thread nD τ).loc main_arg9)
abbrev aGb (c : Dev nD) : S512.Idx → EReal := m ((c : Thread nD τ).loc main_arg10)

/-- The role-side first-layer weight: `conv_w`'s first 128 columns, transposed. -/
theorem V_wRole (c : Dev nD) (k : Fin 128) (f : Fin 256) :
    (V m c main_v10 : S128x256.Idx → EReal) (ix2 k f)
      = aCw m c (ix2 f (⟨k.val, by have := k.isLt; omega⟩ : Fin 256)) := by
  have e : (V m c main_v10 : S128x256.Idx → EReal)
      = truncf (F := Ideal) .bf16 (transpose S128x256 [1, 0] (extractStridedSlice S256x128 ![0, 0]
          (aCw m c) slices_S256x256_S256x128_0_0) transposes_S256x128_S128x256_1_0)
          bitsLt_bf16_f32 := by
    unfold V; after_results <;> rfl
  rw [e]
  simp only [truncf, Ideal.truncf_def]
  exact (transpose_ix2_apply _ _ k f).trans (slice2_axis1_apply 0 _ _ f k _ (Nat.zero_add _).symm)

/-- The value-side first-layer weight: `conv_w`'s last 128 columns, transposed. -/
theorem V_wVal (c : Dev nD) (k : Fin 128) (f : Fin 256) :
    (V m c main_v13 : S128x256.Idx → EReal) (ix2 k f)
      = aCw m c (ix2 f (⟨128 + k.val, by have := k.isLt; omega⟩ : Fin 256)) := by
  have e : (V m c main_v13 : S128x256.Idx → EReal)
      = truncf (F := Ideal) .bf16 (transpose S128x256 [1, 0] (extractStridedSlice S256x128 ![0, 128]
          (aCw m c) slices_S256x256_S256x128_0_128) transposes_S256x128_S128x256_1_0)
          bitsLt_bf16_f32 := by
    unfold V; after_results <;> rfl
  rw [e]
  simp only [truncf, Ideal.truncf_def]
  exact (transpose_ix2_apply _ _ k f).trans (slice2_axis1_apply 128 _ _ f k _ rfl)

/-- The first second-layer weight: `gfcn_w`'s first 256 columns, transposed. -/
theorem V_wI (c : Dev nD) (f : Fin 256) (g : Fin 512) :
    (V m c main_v24 : S256x512.Idx → EReal) (ix2 f g)
      = aGw m c (ix2 g (⟨f.val, by have := f.isLt; omega⟩ : Fin 512)) := by
  have e : (V m c main_v24 : S256x512.Idx → EReal)
      = truncf (F := Ideal) .bf16 (transpose S256x512 [1, 0] (extractStridedSlice S512x256 ![0, 0]
          (aGw m c) slices_S512x512_S512x256_0_0) transposes_S512x256_S256x512_1_0)
          bitsLt_bf16_f32 := by
    unfold V; after_results <;> rfl
  rw [e]
  simp only [truncf, Ideal.truncf_def]
  exact (transpose_ix2_apply _ _ f g).trans (slice2_axis1_apply 0 _ _ g f _ (Nat.zero_add _).symm)

/-- The second second-layer weight: `gfcn_w`'s last 256 columns, transposed. -/
theorem V_wJ (c : Dev nD) (f : Fin 256) (g : Fin 512) :
    (V m c main_v26 : S256x512.Idx → EReal) (ix2 f g)
      = aGw m c (ix2 g (⟨256 + f.val, by have := f.isLt; omega⟩ : Fin 512)) := by
  have e : (V m c main_v26 : S256x512.Idx → EReal)
      = truncf (F := Ideal) .bf16 (transpose S256x512 [1, 0] (extractStridedSlice S512x256 ![0, 256]
          (aGw m c) slices_S512x512_S512x256_0_256) transposes_S512x256_S256x512_1_0)
          bitsLt_bf16_f32 := by
    unfold V; after_results <;> rfl
  rw [e]
  simp only [truncf, Ideal.truncf_def]
  exact (transpose_ix2_apply _ _ f g).trans (slice2_axis1_apply 256 _ _ g f _ rfl)

/-- The per-channel scale. -/
theorem V_scale (c : Dev nD) (f : Fin 256) :
    (V m c main_v17 : S256.Idx → EReal) (ix1 f)
      = scale eps (aGam m c (ix1 f)) (aVar m c (ix1 f)) := by
  have e : (V m c main_v17 : S256.Idx → EReal)
      = Host.divf (F := Ideal) (aGam m c) (Host.sqrt (addf (aVar m c)
          (broadcastInDim S256 ![] bcast_S_S256 (constant (F := Ideal) S_ .f32 0x3727C5AC#32)))) := by
    unfold V; after_results <;> rfl
  rw [e]
  rfl

set_option maxHeartbeats 2000000 in
/-- The folded per-channel bias. -/
theorem V_bias (c : Dev nD) (f : Fin 256) :
    (V m c main_v20 : S256.Idx → EReal) (ix1 f)
      = aBet m c (ix1 f)
        + (aCb m c (ix1 f) - aMu m c (ix1 f))
          * scale eps (aGam m c (ix1 f)) (aVar m c (ix1 f)) := by
  have e : (V m c main_v20 : S256.Idx → EReal)
      = addf (F := Ideal) (aBet m c) (mulf (subf (aCb m c)
          (aMu m c))
          (Host.divf (aGam m c) (Host.sqrt (addf (aVar m c)
          (broadcastInDim S256 ![] bcast_S_S256 (constant (F := Ideal) S_ .f32 0x3727C5AC#32)))))) := by
    unfold V; after_results_simp <;> rfl
  rw [e]
  rfl

/-- The gathered role embeddings, as the host's operations compute them from the role table and the role ids. -/
def roleArr (tbl : S1000x128.Idx → EReal) (ids : IVec S1024x16 32) : S1024x16x128.Idx → EReal :=
  Host.gather gather_S1000x128_S1024x16x1_S1024x16x128_2_0_n_n_0_2_1128 tbl
    (broadcastInDim S1024x16x1 ![0, 1] bcast_S1024x16_S1024x16x1_0_1
      (select (cmpi .slt ids (broadcastInDim S1024x16 ![] bcast_S_S1024x16 (constantI S_ 32 0#32)))
        (addi ids (broadcastInDim S1024x16 ![] bcast_S_S1024x16 (constantI S_ 32 1000#32))) ids))

theorem V_role (c : Dev nD) :
    (V m c main_v7 : S1024x16x128.Idx → EReal)
      = roleArr (aTbl m c) (aIds m c) := by
  unfold V; after_results <;> rfl

end Cert.KernelIdeal.HostSide

end
-- ==== Proof.Forms.lean ====
/-
  The fact block's result as ONE function of the argument arrays, index by index, on the extended reals, in the
  arrangement the kernel computes it in.

  For batch row `b`, position `a` and channel `f` the hidden activation is
    `hiddenAct = max ((Σ_{k<128} role(b,a,k)·conv_w(f,k) + Σ_{k<128} value(b,a,k)·conv_w(f,128+k)) · s(f) + (beta(f) + (conv_b(f) − mean(f))·s(f))) 0`
  with `s(f) = gamma(f) / sqrt(var(f) + eps)`, and the result at `(b, g)` is
    `max (((⨅_a Σ_f hiddenAct(b,a,f)·gfcn_w(g,f)) + (⨅_a Σ_f hiddenAct(b,a,f)·gfcn_w(g,256+f))) + gfcn_b(g)) 0`.
  `role` is the array of gathered role embeddings.
-/
import proofs.«175066_j28252294873241_2_alg».proof.Proof.Spec
import Idealize.ShloMosaic.Lib.ValueIdx

noncomputable section

namespace Cert.FactBlock

open Idealize.ShloMosaic Idealize.ShloMosaic.ValueIdx

/-- The hidden activation of position `a` of batch row `b`, channel `f`. -/
def hiddenAct (e : EReal) (role val : (⟨3, ![1024, 16, 128]⟩ : Shape).Idx → EReal)
    (cw : (⟨2, ![256, 256]⟩ : Shape).Idx → EReal) (cb gam bet mu var : (⟨1, ![256]⟩ : Shape).Idx → EReal)
    (b : Fin 1024) (a : Fin 16) (f : Fin 256) : EReal :=
  max (((∑ k : Fin 128, role (ix3 b a k) * cw (ix2 f (⟨k.val, by have := k.isLt; omega⟩ : Fin 256)))
        + ∑ k : Fin 128, val (ix3 b a k) * cw (ix2 f (⟨128 + k.val, by have := k.isLt; omega⟩ : Fin 256)))
      * scale e (gam (ix1 f)) (var (ix1 f))
    + (bet (ix1 f) + (cb (ix1 f) - mu (ix1 f)) * scale e (gam (ix1 f)) (var (ix1 f)))) 0

/-- The result at batch row `b`, output channel `g`. -/
def outAt (e : EReal) (role val : (⟨3, ![1024, 16, 128]⟩ : Shape).Idx → EReal)
    (cw : (⟨2, ![256, 256]⟩ : Shape).Idx → EReal) (cb gam bet mu var : (⟨1, ![256]⟩ : Shape).Idx → EReal)
    (gw : (⟨2, ![512, 512]⟩ : Shape).Idx → EReal) (gb : (⟨1, ![512]⟩ : Shape).Idx → EReal)
    (b : Fin 1024) (g : Fin 512) : EReal :=
  max (((⨅ a : Fin 16, ∑ f : Fin 256, hiddenAct e role val cw cb gam bet mu var b a f
            * gw (ix2 g (⟨f.val, by have := f.isLt; omega⟩ : Fin 512)))
        + ⨅ a : Fin 16, ∑ f : Fin 256, hiddenAct e role val cw cb gam bet mu var b a f
            * gw (ix2 g (⟨256 + f.val, by have := f.isLt; omega⟩ : Fin 512)))
      + gb (ix1 g)) 0

/-- The whole result array. -/
def G (e : EReal) (role val : (⟨3, ![1024, 16, 128]⟩ : Shape).Idx → EReal)
    (cw : (⟨2, ![256, 256]⟩ : Shape).Idx → EReal) (cb gam bet mu var : (⟨1, ![256]⟩ : Shape).Idx → EReal)
    (gw : (⟨2, ![512, 512]⟩ : Shape).Idx → EReal) (gb : (⟨1, ![512]⟩ : Shape).Idx → EReal) :
    (⟨2, ![1024, 512]⟩ : Shape).Idx → EReal :=
  fun i => outAt e role val cw cb gam bet mu var gw gb ⟨(i 0).val, idx2_lt0 i⟩ ⟨(i 1).val, idx2_lt1 i⟩

theorem G_apply (e : EReal) (role val : (⟨3, ![1024, 16, 128]⟩ : Shape).Idx → EReal)
    (cw : (⟨2, ![256, 256]⟩ : Shape).Idx → EReal) (cb gam bet mu var : (⟨1, ![256]⟩ : Shape).Idx → EReal)
    (gw : (⟨2, ![512, 512]⟩ : Shape).Idx → EReal) (gb : (⟨1, ![512]⟩ : Shape).Idx → EReal) (b : Fin 1024) (g : Fin 512) :
    G e role val cw cb gam bet mu var gw gb (ix2 b g) = outAt e role val cw cb gam bet mu var gw gb b g := rfl

end Cert.FactBlock

end
-- ==== Proof.KValue.lean ====
/-
  From blocks to the array: what each grid point writes back is a block of rows of `G`, and the 16 blocks cover
  the result array.

  Grid point `t` stages batch rows `64 t … 64 t + 63` of the role embeddings and of the value embeddings, and the
  whole of every weight, scale and bias array; it writes rows `64 t … 64 t + 63` of the result. Row `p` of its
  block is therefore row `64 t + p` of `G`: the block's hidden activations are those of that batch row, and the
  two minima over positions and the final rectified sum are taken per row.
-/
import proofs.«175066_j28252294873241_2_alg».proof.Proof.Gen.KernelIdeal.Frame
import proofs.«175066_j28252294873241_2_alg».proof.Proof.KBody
import proofs.«175066_j28252294873241_2_alg».proof.Proof.KHost
import proofs.«175066_j28252294873241_2_alg».proof.Proof.Forms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.FactBlock Cert.KernelIdeal.Body Cert.KernelIdeal.HostSide

variable (m : (ℓ : Loc nD τ sig) → Buf (Elt Ideal) ℓ) (ρ : Dev nD → PrngReg)

/-- The result array as a function of the argument arrays on core `c`. -/
def Gk (c : Dev nD) : S1024x512.Idx → EReal :=
  G eps (roleArr (aTbl m c) (aIds m c)) (aVal m c) (aCw m c) (aCb m c) (aGam m c) (aBet m c) (aMu m c) (aVar m c)
    (aGw m c) (aGb m c)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 16 grid points: the two embedding windows and the output window move
    with the point along the batch axis, every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem t_lt (t : Fin cfg0.N) : t.val < 16 := by
  have h := t.isLt
  have e : cfg0.N = 16 := N_0
  omega

/-! ## The input windows' blocks at a point, read at an index -/

theorem read0 (c : Dev nD) (t : Fin cfg0.N) (p : Fin 64) (a : Fin 16) (k : Fin 128) (h : 64 * t.val + p.val < 1024) :
    iblk m c 0 t (ix3 p a k) = roleArr (aTbl m c) (aIds m c) (ix3 (⟨64 * t.val + p.val, h⟩ : Fin 1024) a k) := by
  obtain ⟨e0, e1, e2, -⟩ := idx_facts t
  show V m c main_v7 (((cfg0.win 0).blk t).view.emb (ix3 p a k)) = _
  rw [V_role]
  refine congrArg _ (funext fun d => Fin.ext ?_)
  match d with
  | ⟨0, _⟩ => show win0_0.index t (0 : Fin 3) * 64 + 1 * p.val = 64 * t.val + p.val; omega
  | ⟨1, _⟩ => show win0_0.index t (1 : Fin 3) * 16 + 1 * a.val = a.val; omega
  | ⟨2, _⟩ => show win0_0.index t (2 : Fin 3) * 128 + 1 * k.val = k.val; omega

theorem read1 (c : Dev nD) (t : Fin cfg0.N) (p : Fin 64) (a : Fin 16) (k : Fin 128) (h : 64 * t.val + p.val < 1024) :
    iblk m c 1 t (ix3 p a k) = aVal m c (ix3 (⟨64 * t.val + p.val, h⟩ : Fin 1024) a k) := by
  obtain ⟨-, -, -, e0, e1, e2, -⟩ := idx_facts t
  show V m c main_arg1 (((cfg0.win 1).blk t).view.emb (ix3 p a k)) = _
  rw [V_main_arg1]
  refine congrArg _ (funext fun d => Fin.ext ?_)
  match d with
  | ⟨0, _⟩ => show win0_1.index t (0 : Fin 3) * 64 + 1 * p.val = 64 * t.val + p.val; omega
  | ⟨1, _⟩ => show win0_1.index t (1 : Fin 3) * 16 + 1 * a.val = a.val; omega
  | ⟨2, _⟩ => show win0_1.index t (2 : Fin 3) * 128 + 1 * k.val = k.val; omega

theorem read2 (c : Dev nD) (t : Fin cfg0.N) (k : Fin 128) (f : Fin 256) :
    iblk m c 2 t (ix2 k f) = aCw m c (ix2 f (⟨k.val, by have := k.isLt; omega⟩ : Fin 256)) := by
  obtain ⟨-, -, -, -, -, -, e0, e1, -⟩ := idx_facts t
  show V m c main_v10 (((cfg0.win 2).blk t).view.emb (ix2 k f)) = _
  refine Eq.trans (congrArg _ (funext fun d => Fin.ext ?_)) (V_wRole m c k f)
  match d with
  | ⟨0, _⟩ => show win0_2.index t (0 : Fin 2) * 128 + 1 * k.val = k.val; omega
  | ⟨1, _⟩ => show win0_2.index t (1 : Fin 2) * 256 + 1 * f.val = f.val; omega

theorem read3 (c : Dev nD) (t : Fin cfg0.N) (k : Fin 128) (f : Fin 256) :
    iblk m c 3 t (ix2 k f) = aCw m c (ix2 f (⟨128 + k.val, by have := k.isLt; omega⟩ : Fin 256)) := by
  obtain ⟨-, -, -, -, -, -, -, -, e0, e1, -⟩ := idx_facts t
  show V m c main_v13 (((cfg0.win 3).blk t).view.emb (ix2 k f)) = _
  refine Eq.trans (congrArg _ (funext fun d => Fin.ext ?_)) (V_wVal m c k f)
  match d with
  | ⟨0, _⟩ => show win0_3.index t (0 : Fin 2) * 128 + 1 * k.val = k.val; omega
  | ⟨1, _⟩ => show win0_3.index t (1 : Fin 2) * 256 + 1 * f.val = f.val; omega

theorem read4 (c : Dev nD) (t : Fin cfg0.N) (f : Fin 256) :
    iblk m c 4 t (ix1 f) = scale eps (aGam m c (ix1 f)) (aVar m c (ix1 f)) := by
  obtain ⟨-, -, -, -, -, -, -, -, -, -, e0, -⟩ := idx_facts t
  show V m c main_v17 (((cfg0.win 4).blk t).view.emb (ix1 f)) = _
  refine Eq.trans (congrArg _ (funext fun d => Fin.ext ?_)) (V_scale m c f)
  match d with
  | ⟨0, _⟩ => show win0_4.index t (0 : Fin 1) * 256 + 1 * f.val = f.val; omega

theorem read5 (c : Dev nD) (t : Fin cfg0.N) (f : Fin 256) :
    iblk m c 5 t (ix1 f) = aBet m c (ix1 f) + (aCb m c (ix1 f) - aMu m c (ix1 f))
      * scale eps (aGam m c (ix1 f)) (aVar m c (ix1 f)) := by
  obtain ⟨-, -, -, -, -, -, -, -, -, -, -, e0, -⟩ := idx_facts t
  show V m c main_v20 (((cfg0.win 5).blk t).view.emb (ix1 f)) = _
  refine Eq.trans (congrArg _ (funext fun d => Fin.ext ?_)) (V_bias m c f)
  match d with
  | ⟨0, _⟩ => show win0_5.index t (0 : Fin 1) * 256 + 1 * f.val = f.val; omega

theorem read6 (c : Dev nD) (t : Fin cfg0.N) (f : Fin 256) (g : Fin 512) :
    iblk m c 6 t (ix2 f g) = aGw m c (ix2 g (⟨f.val, by have := f.isLt; omega⟩ : Fin 512)) := by
  obtain ⟨-, -, -, -, -, -, -, -, -, -, -, -, e0, e1, -⟩ := idx_facts t
  show V m c main_v24 (((cfg0.win 6).blk t).view.emb (ix2 f g)) = _
  refine Eq.trans (congrArg _ (funext fun d => Fin.ext ?_)) (V_wI m c f g)
  match d with
  | ⟨0, _⟩ => show win0_6.index t (0 : Fin 2) * 256 + 1 * f.val = f.val; omega
  | ⟨1, _⟩ => show win0_6.index t (1 : Fin 2) * 512 + 1 * g.val = g.val; omega

theorem read7 (c : Dev nD) (t : Fin cfg0.N) (f : Fin 256) (g : Fin 512) :
    iblk m c 7 t (ix2 f g) = aGw m c (ix2 g (⟨256 + f.val, by have := f.isLt; omega⟩ : Fin 512)) := by
  obtain ⟨-, -, -, -, -, -, -, -, -, -, -, -, -, -, e0, e1, -⟩ := idx_facts t
  show V m c main_v26 (((cfg0.win 7).blk t).view.emb (ix2 f g)) = _
  refine Eq.trans (congrArg _ (funext fun d => Fin.ext ?_)) (V_wJ m c f g)
  match d with
  | ⟨0, _⟩ => show win0_7.index t (0 : Fin 2) * 256 + 1 * f.val = f.val; omega
  | ⟨1, _⟩ => show win0_7.index t (1 : Fin 2) * 512 + 1 * g.val = g.val; omega

theorem read8 (c : Dev nD) (t : Fin cfg0.N) (g : Fin 512) :
    iblk m c 8 t (ix1 g) = aGb m c (ix1 g) := by
  obtain ⟨-, -, -, -, -, -, -, -, -, -, -, -, -, -, -, -, e0, -⟩ := idx_facts t
  show V m c main_arg10 (((cfg0.win 8).blk t).view.emb (ix1 g)) = _
  rw [V_main_arg10]
  refine congrArg _ (funext fun d => Fin.ext ?_)
  match d with
  | ⟨0, _⟩ => show win0_8.index t (0 : Fin 1) * 512 + 1 * g.val = g.val; omega

/-! ## One point's block -/

/-- The hidden activations of a point's block are those of its batch rows. -/
theorem hid_block (c : Dev nD) (t : Fin cfg0.N) (p : Fin 64) (a : Fin 16) (f : Fin 256) (h : 64 * t.val + p.val < 1024) :
    hid (iblk m c 0 t) (iblk m c 1 t) (iblk m c 2 t) (iblk m c 3 t) (iblk m c 4 t) (iblk m c 5 t) p a f
      = hiddenAct eps (roleArr (aTbl m c) (aIds m c)) (aVal m c) (aCw m c) (aCb m c) (aGam m c) (aBet m c) (aMu m c)
          (aVar m c) (⟨64 * t.val + p.val, h⟩ : Fin 1024) a f := by
  unfold hid hiddenAct
  simp only [read0 m c t p a _ h, read1 m c t p a _ h, read2 m c t, read3 m c t, read4 m c t, read5 m c t]

/-- Row `p`, column `q` of what point `t` stores is `G` at row `64 t + p`, column `q`. -/
theorem block_value (c : Dev nD) (t : Fin cfg0.N) (p : Fin 64) (q : Fin 512) (h : 64 * t.val + p.val < 1024) :
    k0_pay1 (F := Ideal)
        (k0_pay3 (F := Ideal) (iblk m c 0 t) (iblk m c 1 t) (iblk m c 2 t) (iblk m c 3 t) (iblk m c 4 t) (iblk m c 5 t) (iblk m c 6 t))
        (k0_pay4 (F := Ideal) (iblk m c 0 t) (iblk m c 1 t) (iblk m c 2 t) (iblk m c 3 t) (iblk m c 4 t) (iblk m c 5 t) (iblk m c 7 t))
        (iblk m c 8 t) (ix2 p q)
      = Gk m c (ix2 (⟨64 * t.val + p.val, h⟩ : Fin 1024) q) := by
  rw [pay1_apply, pay3_eq, pay4_eq, minRows_apply, minRows_apply]
  simp only [pay2_row (iblk m c 0 t) (iblk m c 1 t) (iblk m c 2 t) (iblk m c 3 t) (iblk m c 4 t) (iblk m c 5 t),
    hid_block m c t p _ _ h, read6 m c t, read7 m c t, read8 m c t]
  rfl

/-! ## What a point writes back, the cover, and the array after the run -/

/-- WHAT POINT `t` WRITES BACK is block `t` of `Gk`. -/
theorem flushed_eq (c : Dev nD) (t : Fin cfg0.N) :
    (dats m 0 c).flushed 9 t = ((cfg0.win 9).blk t).view.read (Elt Ideal) (Gk m c) := by
  show (cfg0.win 9).cut (grid0.coords t) ((dats m 0 c).after 9 t) = _
  rw [after0_9]
  unfold out0_9
  rw [View.canon_unit_zero hz2]
  simp only [View.ld_unit_zero (S := S64x16x128) hz3, View.ld_unit_zero (S := S128x256) hz2,
    View.ld_unit_zero (S := S256) hz1, View.ld_unit_zero (S := S256x512) hz2, View.ld_unit_zero (S := S512) hz1]
  funext j
  obtain ⟨p, q, rfl⟩ : ∃ (p : Fin 64) (q : Fin 512), j = ix2 p q := ⟨j 0, j 1, eq_ix2 j⟩
  have ht := t_lt t
  have hp := p.isLt
  have hlt : 64 * t.val + p.val < 1024 := by omega
  obtain ⟨-, -, -, -, -, -, -, -, -, -, -, -, -, -, -, -, -, e0, e1⟩ := idx_facts t
  have hemb : ((cfg0.win 9).blk t).view.emb (ix2 p q) = ix2 (⟨64 * t.val + p.val, hlt⟩ : Fin 1024) q := by
    funext d; apply Fin.ext
    match d with
    | ⟨0, _⟩ => show win0_9.index t (0 : Fin 2) * 64 + 1 * p.val = 64 * t.val + p.val; omega
    | ⟨1, _⟩ => show win0_9.index t (1 : Fin 2) * 512 + 1 * q.val = q.val; omega
  show _ = Gk m c (((cfg0.win 9).blk t).view.emb (ix2 p q))
  rw [hemb]
  exact block_value m c t p q hlt

/-- An index of the result array is in point `t`'s block iff each coordinate is in the block's range on its axis. -/
theorem mem_blk (t : Fin cfg0.N) (i : S1024x512.Idx) :
    i ∈ ((cfg0.win 9).blk t).view.set ↔ ∀ a : Fin 2, win0_9.index t a * S64x512.size a ≤ (i a).val ∧ (i a).val < win0_9.index t a * S64x512.size a + S64x512.size a := by
  show i ∈ ((View.whole main_v27).slice (win0_9.rect t)).set ↔ _
  rw [View.set_slice_whole, Rect.mem_set_unit]
  exact Iff.rfl

/-- Every row of the result lies in the block of the point that is its 64-row group. -/
theorem cover (i : S1024x512.Idx) : ∃ t : Fin cfg0.N, (cfg0.win 9).flush t = true ∧ i ∈ ((cfg0.win 9).blk t).view.set := by
  have hi0 : (i 0).val < 1024 := (i 0).isLt
  have hi1 : (i 1).val < 512 := (i 1).isLt
  have eN : cfg0.N = 16 := N_0
  refine ⟨⟨(i 0).val / 64, by omega⟩, flush0_9 _, ?_⟩
  rw [mem_blk]
  obtain ⟨-, -, -, -, -, -, -, -, -, -, -, -, -, -, -, -, -, e0, e1⟩ := idx_facts ⟨(i 0).val / 64, by omega⟩
  intro a
  match a with
  | ⟨0, _⟩ =>
    show win0_9.index ⟨(i 0).val / 64, _⟩ (0 : Fin 2) * 64 ≤ (i 0).val ∧ (i 0).val < win0_9.index ⟨(i 0).val / 64, _⟩ (0 : Fin 2) * 64 + 64
    rw [e0]
    show (i 0).val / 64 * 64 ≤ (i 0).val ∧ (i 0).val < (i 0).val / 64 * 64 + 64
    omega
  | ⟨1, _⟩ =>
    show win0_9.index ⟨(i 0).val / 64, _⟩ (1 : Fin 2) * 512 ≤ (i 1).val ∧ (i 1).val < win0_9.index ⟨(i 0).val / 64, _⟩ (1 : Fin 2) * 512 + 512
    rw [e1]
    omega

/-- THE ARRAY after the run is `Gk`. -/
theorem final (c : Dev nD) : (dats m 0 c).arrAt 9 cfg0.N = Gk m c :=
  (dats m 0 c).arrAt_eq_of_cover 9 (Gk m c) (fun t _ => flushed_eq m c t) cover

end Cert.KernelIdeal.Blocks

end
-- ==== Proof.LibSumSplit.lean ====
/-
  A finite sum over `Fin n` cut at a position.

  In any commutative additive monoid, the sum of `f` over `Fin n` with `n = a + b` is the sum over the first `a`
  positions plus the sum over the last `b` positions, the latter read at `a + x`. No subtraction or cancellation is used,
  so the law holds on the extended reals as it stands. Cutting twice or three times gives the three- and four-part forms.
-/
import Mathlib.Algebra.BigOperators.Fin

namespace Cert.LibSumSplit

/-- A sum over `Fin n`, `n = a + b`, is the sum over the first `a` positions plus the sum over the last `b`. -/
theorem sum_cut {M : Type*} [AddCommMonoid M] (a b n : ℕ) (h : a + b = n) (f : Fin n → M) :
    ∑ k : Fin n, f k
      = (∑ x : Fin a, f ⟨x.val, by have := x.isLt; omega⟩) + ∑ x : Fin b, f ⟨a + x.val, by have := x.isLt; omega⟩ := by
  subst h
  rw [Fin.sum_univ_add]
  rfl

/-- Three consecutive parts of extents `a`, `b`, `c`. -/
theorem sum_cut3 {M : Type*} [AddCommMonoid M] (a b c n : ℕ) (h : a + b + c = n) (f : Fin n → M) :
    ∑ k : Fin n, f k
      = ((∑ x : Fin a, f ⟨x.val, by have := x.isLt; omega⟩) + ∑ x : Fin b, f ⟨a + x.val, by have := x.isLt; omega⟩)
        + ∑ x : Fin c, f ⟨a + b + x.val, by have := x.isLt; omega⟩ := by
  rw [sum_cut (a + b) c n h f, sum_cut a b (a + b) rfl (fun k => f ⟨k.val, by have := k.isLt; omega⟩)]

/-- Four consecutive parts of extents `a`, `b`, `c`, `d`. -/
theorem sum_cut4 {M : Type*} [AddCommMonoid M] (a b c d n : ℕ) (h : a + b + c + d = n) (f : Fin n → M) :
    ∑ k : Fin n, f k
      = (((∑ x : Fin a, f ⟨x.val, by have := x.isLt; omega⟩) + ∑ x : Fin b, f ⟨a + x.val, by have := x.isLt; omega⟩)
        + ∑ x : Fin c, f ⟨a + b + x.val, by have := x.isLt; omega⟩)
        + ∑ x : Fin d, f ⟨a + b + c + x.val, by have := x.isLt; omega⟩ := by
  rw [sum_cut (a + b + c) d n h f,
    sum_cut3 a b c (a + b + c) rfl (fun k => f ⟨k.val, by have := k.isLt; omega⟩)]

end Cert.LibSumSplit
-- ==== Proof.LibMinAxis.lean ====
/-
  The host's minimum over ONE axis of an array of extended reals, by its universal property.

  A value is below the host's `reduce minimum` over one axis, at a result index, exactly when it is below the initial
  value and below every element of the reduced line (`le_hostMin_single`); so from `+∞` the result IS the greatest lower
  bound of the line (`hostMin_single_eq_iInf`). The reduced line's indices, for the middle axis of a rank-3 array and the
  third axis of a rank-4 one, are the result index with the coordinate inserted (`lift_mid3`, `lift_third4`).
  Nothing here depends on a program: any shapes, any initial value.
-/
import Idealize.ShloMosaic.PureOps.Ideal
import Idealize.ShloMosaic.PureOps.Ideal.Laws
import Idealize.ShloMosaic.PureOps.Reduce
import Idealize.ShloMosaic.Lib.ValueIdx

noncomputable section

namespace Cert.LibMinAxis

open Idealize.ShloMosaic Idealize.ShloMosaic.ValueIdx

/-- Below the host's minimum over one axis iff below the initial value and below every element of the reduced line. -/
theorem le_hostMin_single {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := .f32)) x init h' hu j
      ↔ z ≤ init (Shape.Idx.first hu) ∧ ∀ k : Fin (s.size a), z ≤ x (h.lift j k) := by
  classical
  rw [Host.reduce_eq_fold_single (FloatOps.minimumf (F := Ideal) (φ := .f32)) x init h' h hu j]
  refine (Finset.le_fold_min (s := (Finset.univ : Finset (Fin (s.size a)))) (f := x ∘ h.lift j)
    (b := init (Shape.Idx.first hu)) z).trans ?_
  simp only [Finset.mem_univ, true_implies, Function.comp_apply]

/-- From `+∞` the host's minimum over one axis is the greatest lower bound of the reduced line. -/
theorem hostMin_single_eq_iInf {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j = ⨅ k : Fin (s.size a), x (h.lift j k) := by
  refine eq_of_forall_le_iff fun z => ?_
  rw [le_hostMin_single x init h' h hu j z, hinit, le_iInf_iff]
  exact ⟨fun hh => hh.2, fun hh => ⟨le_top, hh⟩⟩

/-- Reducing the middle axis of `[A, B, C]`: the index `(r, q)` with coordinate `k` inserted is `(r, k, q)`. -/
theorem lift_mid3 {A B C : ℕ} (h : (⟨3, ![A, B, C]⟩ : Shape).Reduces [1] ⟨2, ![A, C]⟩) (r : Fin A) (q : Fin C) (k : Fin B) :
    h.lift (ix2 r q) k = ix3 r k q := by
  funext c
  match c with
  | ⟨0, _⟩ => exact Fin.ext rfl
  | ⟨1, _⟩ => exact Fin.ext rfl
  | ⟨2, _⟩ => exact Fin.ext rfl

/-- Reducing the third axis of `[A, B, C, D]`: the index `(a, b, d)` with coordinate `k` inserted is `(a, b, k, d)`. -/
theorem lift_third4 {A B C D : ℕ} (h : (⟨4, ![A, B, C, D]⟩ : Shape).Reduces [2] ⟨3, ![A, B, D]⟩)
    (a : Fin A) (b : Fin B) (d : Fin D) (k : Fin C) :
    h.lift (ix3 a b d) k = ix4 a b k d := by
  funext c
  match c with
  | ⟨0, _⟩ => exact Fin.ext rfl
  | ⟨1, _⟩ => exact Fin.ext rfl
  | ⟨2, _⟩ => exact Fin.ext rfl
  | ⟨3, _⟩ => exact Fin.ext rfl

end Cert.LibMinAxis

end
-- ==== Proof.RefValue.lean ====
/-
  The reference's result read index by index, and why it is the function `G`.

  The reference joins the role embedding and the value embedding along the feature axis and contracts the 256 joined
  features with one row of `conv_w`: a sum over 256 positions that is the sum over the first 128 (the role half) plus
  the sum over the last 128 (the value half). It then adds `conv_b`, subtracts the mean, multiplies by the scale and
  adds `beta` — the same affine map the kernel applies with the bias folded, for real coefficients
  (`Spec.affine_fold`). After the two second-layer products it forms, for every pair `(i, j)` of positions, the
  rectified sum `max (a_i + a_j + b) 0` and takes the minimum over `j`, then over `i`: the greatest lower bound over
  all pairs, which is the rectified sum of the two separate greatest lower bounds (`Spec.iInf_relu_add`).
-/
import proofs.«175066_j28252294873241_2_alg».proof.Proof.Gen.ReferenceIdeal.Read
import proofs.«175066_j28252294873241_2_alg».proof.Proof.Forms
import proofs.«175066_j28252294873241_2_alg».proof.Proof.LibSumSplit
import proofs.«175066_j28252294873241_2_alg».proof.Proof.LibMinAxis
import proofs.«175066_j28252294873241_2_alg».proof.Proof.LibMinReduce
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.FactBlock

/-- The epsilon both programs add to the variance. -/
abbrev eps : EReal := Ideal.ofBits .f32 0x3727C5AC#32

variable (x0 : IVec S1024x16 32) (x1 : S1024x16x128.Idx → EReal) (x2 : S1000x128.Idx → EReal)
  (x3 : S256x256.Idx → EReal) (x4 x5 x6 x7 x8 : S256.Idx → EReal) (x9 : S512x512.Idx → EReal) (x10 : S512.Idx → EReal)

/-! ## Per-channel vectors broadcast over batch rows and positions -/

theorem chan_v10 (b : Fin 1024) (a : Fin 16) (f : Fin 256) : val_main_v10 (F := Ideal) x4 (ix3 b a f) = x4 (ix1 f) := by
  rw [val_main_v10_apply, val_main_v9_apply]
  exact congrArg x4 (funext fun c => match c with | ⟨0, _⟩ => rfl)

theorem chan_v13 (b : Fin 1024) (a : Fin 16) (f : Fin 256) : val_main_v13 (F := Ideal) x7 (ix3 b a f) = x7 (ix1 f) := by
  rw [val_main_v13_apply, val_main_v12_apply]
  exact congrArg x7 (funext fun c => match c with | ⟨0, _⟩ => rfl)

theorem chan_v23 (b : Fin 1024) (a : Fin 16) (f : Fin 256) : val_main_v23 (F := Ideal) x6 (ix3 b a f) = x6 (ix1 f) := by
  rw [val_main_v23_apply, val_main_v22_apply]
  exact congrArg x6 (funext fun c => match c with | ⟨0, _⟩ => rfl)

theorem chan_v20 (b : Fin 1024) (a : Fin 16) (f : Fin 256) :
    val_main_v20 (F := Ideal) x5 x8 (ix3 b a f) = scale eps (x5 (ix1 f)) (x8 (ix1 f)) := by
  rw [val_main_v20_apply, val_main_v19_apply]
  have e : idx_main_v19 (idx_main_v20 (ix3 b a f)) = ix1 f := funext fun c => match c with | ⟨0, _⟩ => rfl
  rw [e]
  rfl

/-! ## The joined features -/

theorem cat_left (b : Fin 1024) (a : Fin 16) (k : Fin 128) (h : k.val < 256) :
    val_main_v7 (F := Ideal) x0 x1 x2 (ix3 b a (⟨k.val, h⟩ : Fin 256)) = val_main_v6 (F := Ideal) x0 x2 (ix3 b a k) := by
  unfold val_main_v7
  exact concatenate_pair_apply_left 2 _ _ concatenates_S1024x16x128_S1024x16x128_S1024x16x256_d2 _ rfl (ix3 b a k)
    (fun c => match c with | ⟨0, _⟩ => rfl | ⟨1, _⟩ => rfl | ⟨2, _⟩ => rfl)

theorem cat_right (b : Fin 1024) (a : Fin 16) (k : Fin 128) (h : 128 + k.val < 256) :
    val_main_v7 (F := Ideal) x0 x1 x2 (ix3 b a (⟨128 + k.val, h⟩ : Fin 256)) = x1 (ix3 b a k) := by
  unfold val_main_v7
  exact concatenate_pair_apply_right 2 _ _ concatenates_S1024x16x128_S1024x16x128_S1024x16x256_d2 _ rfl rfl (ix3 b a k)
    (fun c hc => match c, hc with
      | ⟨0, _⟩, _ => rfl
      | ⟨1, _⟩, _ => rfl
      | ⟨2, _⟩, hc => absurd rfl hc)
    (by show k.val + 128 = 128 + k.val; omega)

/-! ## The first layer -/

theorem v24_apply (b : Fin 1024) (a : Fin 16) (f : Fin 256) :
    val_main_v24 (F := Ideal) x0 x1 x2 x3 x4 x5 x6 x7 x8 (ix3 b a f)
      = (((∑ k : Fin 256, val_main_v7 (F := Ideal) x0 x1 x2 (ix3 b a k) * x3 (ix2 f k)) + x4 (ix1 f)) - x7 (ix1 f))
          * scale eps (x5 (ix1 f)) (x8 (ix1 f)) + x6 (ix1 f) := by
  rw [val_main_v24_apply, val_main_v21_apply, val_main_v14_apply, val_main_v11_apply, val_main_v8_apply, chan_v10,
    chan_v13, chan_v20, chan_v23]
  have hl : ∀ k, lidx_main_v8 (ix3 b a f) k = ix3 b a k := fun k => funext fun c =>
    match c with | ⟨0, _⟩ => rfl | ⟨1, _⟩ => rfl | ⟨2, _⟩ => rfl
  have hr : ∀ k, ridx_main_v8 (ix3 b a f) k = ix2 f k := fun k => funext fun c =>
    match c with | ⟨0, _⟩ => rfl | ⟨1, _⟩ => rfl
  simp only [hl, hr, Ideal.addf_def, Ideal.subf_def, Ideal.mulf_def]

/-- The reference's hidden activation is `hidden`, when the per-channel coefficients are real numbers. -/
theorem v25_apply (h4 : ∀ f, IsReal (x4 (ix1 f))) (h6 : ∀ f, IsReal (x6 (ix1 f))) (h7 : ∀ f, IsReal (x7 (ix1 f)))
    (hs : ∀ f, IsReal (scale eps (x5 (ix1 f)) (x8 (ix1 f)))) (b : Fin 1024) (a : Fin 16) (f : Fin 256) :
    val_main_v25 (F := Ideal) x0 x1 x2 x3 x4 x5 x6 x7 x8 (ix3 b a f)
      = hiddenAct eps (val_main_v6 (F := Ideal) x0 x2) x1 x3 x4 x5 x6 x7 x8 b a f := by
  rw [val_main_v25_apply, v24_apply, val_main_call0_v0_apply, val_main_call0_cst_apply]
  simp only [Ideal.maximumf_def, Ideal.ofBits_def, Ideal.ofBits_zero_f32]
  unfold hiddenAct
  congr 1
  rw [Cert.LibSumSplit.sum_cut 128 128 256 rfl]
  simp only [cat_left, cat_right]
  exact affine_fold _ _ _ _ _ (h4 f) (h7 f) (hs f) (h6 f)

/-! ## The second layer -/

theorem v28_apply' (b : Fin 1024) (a : Fin 16) (g : Fin 512) :
    val_main_v28 (F := Ideal) x0 x1 x2 x3 x4 x5 x6 x7 x8 x9 (ix3 b a g)
      = ∑ k : Fin 256, val_main_v25 (F := Ideal) x0 x1 x2 x3 x4 x5 x6 x7 x8 (ix3 b a k)
          * x9 (ix2 g (⟨k.val, by have := k.isLt; omega⟩ : Fin 512)) := by
  rw [val_main_v28_apply]
  refine Finset.sum_congr rfl fun k _ => ?_
  rw [val_main_v26_apply]
  have hl : lidx_main_v28 (ix3 b a g) k = ix3 b a k := funext fun c =>
    match c with | ⟨0, _⟩ => rfl | ⟨1, _⟩ => rfl | ⟨2, _⟩ => rfl
  have hr : idx_main_v26 (ridx_main_v28 (ix3 b a g) k) = ix2 g (⟨k.val, by have := k.isLt; omega⟩ : Fin 512) :=
    funext fun c => match c with | ⟨0, _⟩ => rfl | ⟨1, _⟩ => rfl
  rw [hl, hr]

theorem v29_apply' (b : Fin 1024) (a : Fin 16) (g : Fin 512) :
    val_main_v29 (F := Ideal) x0 x1 x2 x3 x4 x5 x6 x7 x8 x9 (ix3 b a g)
      = ∑ k : Fin 256, val_main_v25 (F := Ideal) x0 x1 x2 x3 x4 x5 x6 x7 x8 (ix3 b a k)
          * x9 (ix2 g (⟨256 + k.val, by have := k.isLt; omega⟩ : Fin 512)) := by
  rw [val_main_v29_apply]
  refine Finset.sum_congr rfl fun k _ => ?_
  rw [val_main_v27_apply]
  have hl : lidx_main_v29 (ix3 b a g) k = ix3 b a k := funext fun c =>
    match c with | ⟨0, _⟩ => rfl | ⟨1, _⟩ => rfl | ⟨2, _⟩ => rfl
  have hr : idx_main_v27 (ridx_main_v29 (ix3 b a g) k) = ix2 g (⟨256 + k.val, by have := k.isLt; omega⟩ : Fin 512) :=
    funext fun c => match c with | ⟨0, _⟩ => rfl | ⟨1, _⟩ => rfl
  rw [hl, hr]

/-! ## The pairwise rectified sums and the two minima -/

theorem v38_apply' (b : Fin 1024) (i j : Fin 16) (g : Fin 512) :
    val_main_v38 (F := Ideal) x0 x1 x2 x3 x4 x5 x6 x7 x8 x9 x10 (ix4 b i j g)
      = max ((val_main_v28 (F := Ideal) x0 x1 x2 x3 x4 x5 x6 x7 x8 x9 (ix3 b i g) + val_main_v29 (F := Ideal) x0 x1 x2 x3 x4 x5 x6 x7 x8 x9 (ix3 b j g))
          + x10 (ix1 g)) 0 := by
  rw [val_main_v38_apply, val_main_v37_apply, val_main_v34_apply, val_main_v32_apply, val_main_v30_apply,
    val_main_v33_apply, val_main_v31_apply, val_main_v36_apply, val_main_v35_apply, val_main_call1_v0_apply,
    val_main_call1_cst_apply]
  have e1 : idx_main_v30 (idx_main_v32 (ix4 b i j g)) = ix3 b i g := funext fun c =>
    match c with | ⟨0, _⟩ => rfl | ⟨1, _⟩ => rfl | ⟨2, _⟩ => rfl
  have e2 : idx_main_v31 (idx_main_v33 (ix4 b i j g)) = ix3 b j g := funext fun c =>
    match c with | ⟨0, _⟩ => rfl | ⟨1, _⟩ => rfl | ⟨2, _⟩ => rfl
  have e3 : idx_main_v35 (idx_main_v36 (ix4 b i j g)) = ix1 g := funext fun c =>
    match c with | ⟨0, _⟩ => rfl
  rw [e1, e2, e3]
  simp only [Ideal.maximumf_def, Ideal.addf_def, Ideal.ofBits_def, Ideal.ofBits_zero_f32]

/-- The second minimum drops the position axis of `[1024, 16, 512]`. -/
theorem red_i : S1024x16x512.Reduces [1] S1024x512 :=
  ⟨reducesTo_S1024x16x512_S1024x512_d1.1, by decide, reducesTo_S1024x16x512_S1024x512_d1.2⟩

/-- The first minimum drops the second position axis of `[1024, 16, 16, 512]`. -/
theorem red_j : S1024x16x16x512.Reduces [2] S1024x16x512 :=
  ⟨reducesTo_S1024x16x16x512_S1024x16x512_d2.1, by decide, reducesTo_S1024x16x16x512_S1024x16x512_d2.2⟩

theorem v40_apply' (b : Fin 1024) (g : Fin 512) :
    val_main_v40 (F := Ideal) x0 x1 x2 x3 x4 x5 x6 x7 x8 x9 x10 (ix2 b g)
      = ⨅ i : Fin 16, ⨅ j : Fin 16, val_main_v38 (F := Ideal) x0 x1 x2 x3 x4 x5 x6 x7 x8 x9 x10 (ix4 b i j g) := by
  unfold val_main_v40
  rw [Cert.LibMinAxis.hostMin_single_eq_iInf _ _ reducesTo_S1024x16x512_S1024x512_d1
    red_i h_S_ Cert.LibMinReduce.ofBits_inf (ix2 b g)]
  refine iInf_congr fun (i : Fin 16) => ?_
  rw [Cert.LibMinAxis.lift_mid3 red_i b g i]
  unfold val_main_v39
  rw [Cert.LibMinAxis.hostMin_single_eq_iInf _ _ reducesTo_S1024x16x16x512_S1024x16x512_d2
    red_j h_S_ Cert.LibMinReduce.ofBits_inf (ix3 b i g)]
  refine iInf_congr fun (j : Fin 16) => ?_
  rw [Cert.LibMinAxis.lift_third4 red_j b i g j]

/-! ## The reference's result is `G` -/

theorem result_eq (h4 : ∀ f, IsReal (x4 (ix1 f))) (h6 : ∀ f, IsReal (x6 (ix1 f))) (h7 : ∀ f, IsReal (x7 (ix1 f)))
    (hs : ∀ f, IsReal (scale eps (x5 (ix1 f)) (x8 (ix1 f)))) :
    val_main_v40 (F := Ideal) x0 x1 x2 x3 x4 x5 x6 x7 x8 x9 x10
      = G eps (val_main_v6 (F := Ideal) x0 x2) x1 x3 x4 x5 x6 x7 x8 x9 x10 := by
  funext idx
  obtain ⟨b, g, rfl⟩ : ∃ (b : Fin 1024) (g : Fin 512), idx = ix2 b g := ⟨idx 0, idx 1, eq_ix2 idx⟩
  rw [G_apply, v40_apply']
  simp only [v38_apply']
  rw [iInf_relu_add]
  unfold outAt
  simp only [v28_apply', v29_apply', v25_apply x0 x1 x2 x3 x4 x5 x6 x7 x8 h4 h6 h7 hs]

end Cert.ReferenceIdeal.RefValue

end
-- ==== Proof.Finite.lean ====
/-
  What the precondition says of the per-channel inputs.

  The precondition is a conjunction of tests, each an `and` over a whole array: `|x| < +∞` for every entry of every float
  input, and `var + eps > 0` for every channel. On the extended reals an entry with `|x| < +∞` is a real number (both
  infinities have magnitude `+∞`), so the convolution bias, the batch-norm gain, shift and mean are real in every
  channel, and `var + eps` is positive there.
-/
import proofs.«175066_j28252294873241_2_alg».proof.Proof.Gen.Pre_finite_inputs
import proofs.«175066_j28252294873241_2_alg».proof.Proof.Spec
import proofs.«175066_j28252294873241_2_alg».proof.Proof.LibMinReduce
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx Cert.FactBlock

instance : Subsingleton S_.Idx := ⟨fun _ _ => funext fun d => d.elim0⟩

/-- An extended real whose magnitude is below `+∞` is a real number. -/
theorem real_of_test (x : EReal) (h : Ideal.cmp .olt (max x (-x)) (Ideal.ofBits .f32 0x7F800000#32) = 1#1) : IsReal x := by
  rw [Cert.LibMinReduce.ofBits_inf] at h
  induction x using EReal.rec with
  | bot => simp [Ideal.cmp] at h
  | top => simp [Ideal.cmp] at h
  | coe r => exact ⟨r, rfl⟩

/-- The positivity test, read back. -/
theorem pos_of_test (x : EReal) (h : Ideal.cmp .ogt x (Ideal.ofBits .f32 0x00000000#32) = 1#1) : 0 < x := by
  rw [Ideal.ofBits_zero_f32] at h
  by_contra hn
  simp [Ideal.cmp, hn] at h

/-- The per-channel facts the precondition gives: the convolution bias (argument 4), the gain (5), the shift (6) and the
    mean (7) are real in every channel, and the variance (8) plus epsilon is positive. -/
theorem channel_facts (a0 : IVec S1024x16 32) (a1 : S1024x16x128.Idx → EReal) (a2 : S1000x128.Idx → EReal)
    (a3 : S256x256.Idx → EReal) (a4 a5 a6 a7 a8 : S256.Idx → EReal) (a9 : S512x512.Idx → EReal) (a10 : S512.Idx → EReal)
    (h : fn (F := Ideal) a0 a1 a2 a3 a4 a5 a6 a7 a8 a9 a10 = fun _ => 1#1) :
    (∀ f : Fin 256, IsReal (a4 (ix1 f))) ∧ (∀ f : Fin 256, IsReal (a5 (ix1 f))) ∧ (∀ f : Fin 256, IsReal (a6 (ix1 f)))
      ∧ (∀ f : Fin 256, IsReal (a7 (ix1 f)))
      ∧ (∀ f : Fin 256, 0 < a8 (ix1 f) + Ideal.ofBits .f32 0x3727C5AC#32) := by
  have h0 := congrFun h ix0
  dsimp only [fn, fn_part1, fn_part2, fn_part3] at h0
  simp only [andi, IntOp.andi_eq_one] at h0
  obtain ⟨⟨⟨⟨⟨⟨⟨⟨⟨⟨-, -⟩, -⟩, t4⟩, t5⟩, t6⟩, t7⟩, -⟩, -⟩, -⟩, t11⟩ := h0
  refine ⟨fun f => real_of_test _ (Host.reduce_andi_all _ _ _ _ _ t4 (ix1 f)),
    fun f => real_of_test _ (Host.reduce_andi_all _ _ _ _ _ t5 (ix1 f)),
    fun f => real_of_test _ (Host.reduce_andi_all _ _ _ _ _ t6 (ix1 f)),
    fun f => real_of_test _ (Host.reduce_andi_all _ _ _ _ _ t7 (ix1 f)),
    fun f => pos_of_test _ (Host.reduce_andi_all _ _ _ _ _ t11 (ix1 f))⟩

end Cert.Pre_finite_inputs.Finite

end
-- ==== Proof.lean ====
/-
  One fact block of a relational-fact network, kernel against reference, on the extended reals.

  Both programs embed the 16 (role, value) pairs of each of 1024 facts (a role embedding gathered from a table, joined
  with the value embedding), apply a 256-channel linear map, an evaluation-mode batch normalisation and a rectifier,
  then a 512-channel linear map on every ordered pair of positions, a rectifier, and the minimum over all pairs.

  The kernel differs from the reference in three arrangements, each an identity on the extended reals:
  * it contracts the role half and the value half of the joined features separately and adds the two sums — a finite
    sum cut in two;
  * it folds the convolution bias and the batch-norm mean and shift into ONE bias `beta + (conv_b − mean)·s` and applies
    `x·s + bias` where the reference applies `((x + conv_b) − mean)·s + beta` — equal for every extended real `x` once
    `conv_b`, `mean`, `beta` and the scale `s = gamma / sqrt(var + eps)` are real numbers, which is what the precondition
    gives: finite inputs, and `var + eps > 0` so that the square root is a positive real (at `var + eps = 0` the scale
    is infinite and the two arrangements do differ);
  * it takes the minimum over positions of each second-layer product separately, adds the two minima and the output
    bias, and rectifies once, where the reference rectifies `a_i + a_j + b` for all 256 pairs and then takes the two
    minima — equal because the rectified sum is monotone in each summand and a finite minimum is attained.

  The kernel's frames and the reference's run are the generated ones; the kernel's result array is read off its frame
  block by block (each grid point writes 64 rows), the reference's off its run one operation at a time.
-/
import proofs.«175066_j28252294873241_2_alg».proof.Defs
import proofs.«175066_j28252294873241_2_alg».proof.Proof.Gen.Kernel
import proofs.«175066_j28252294873241_2_alg».proof.Proof.Gen.Kernel.Skeleton
import proofs.«175066_j28252294873241_2_alg».proof.Proof.Gen.Kernel.Launch
import proofs.«175066_j28252294873241_2_alg».proof.Proof.Gen.Kernel.Points
import proofs.«175066_j28252294873241_2_alg».proof.Proof.Gen.Kernel.Frame
import proofs.«175066_j28252294873241_2_alg».proof.Proof.Gen.KernelIdeal
import proofs.«175066_j28252294873241_2_alg».proof.Proof.Gen.KernelIdeal.Skeleton
import proofs.«175066_j28252294873241_2_alg».proof.Proof.Gen.KernelIdeal.Launch
import proofs.«175066_j28252294873241_2_alg».proof.Proof.Gen.KernelIdeal.Points
import proofs.«175066_j28252294873241_2_alg».proof.Proof.Gen.KernelIdeal.Frame
import proofs.«175066_j28252294873241_2_alg».proof.Proof.Gen.ReferenceIdeal
import proofs.«175066_j28252294873241_2_alg».proof.Proof.Gen.Pre_finite_inputs
import proofs.«175066_j28252294873241_2_alg».proof.Proof.Gen.ReferenceIdeal.Run
import proofs.«175066_j28252294873241_2_alg».proof.Proof.Gen.ReferenceIdeal.Read
import proofs.«175066_j28252294873241_2_alg».proof.Proof.ValueP
import proofs.«175066_j28252294873241_2_alg».proof.Proof.KValue
import proofs.«175066_j28252294873241_2_alg».proof.Proof.RefValue
import proofs.«175066_j28252294873241_2_alg».proof.Proof.Finite
import Idealize.ShloMosaic.Adequacy
import Idealize.ShloMosaic.Init

noncomputable section

namespace Cert.Proof

open Idealize.ShloMosaic Idealize.SL.Sem Cert.FactBlock

/-- The word-level kernel's frame is the generated one. -/
theorem frame_kernel : Cert.frame_Kernel := fun m ρ _ => Cert.Kernel.Gen.frame m ρ

/-- The idealized kernel's frame is the generated one. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The gathered role embeddings are one array in both programs: the same gather of the role table (narrowing its
    float format first changes nothing on the extended reals) at the same normalised role ids. -/
theorem role_eq (tbl : Cert.KernelIdeal.S1000x128.Idx → EReal) (ids : IVec Cert.KernelIdeal.S1024x16 32) :
    Cert.ReferenceIdeal.Read.val_main_v6 (F := Ideal) ids tbl = Cert.KernelIdeal.HostSide.roleArr tbl ids := rfl

/-- Both runs end with the result array at `G` of the arguments. -/
theorem algebraic : Cert.algebraic_KernelIdeal_ReferenceIdeal := by
  intro m ρ m' ρ' hpre hagree
  refine ⟨fun c => Cert.KernelIdeal.Blocks.Gk m c, ?_, ?_⟩
  · exact (θ_run Cert.KernelIdeal.defs _ _).mono
      (fun r h c => ⟨(h c).1.trans (Cert.KernelIdeal.Blocks.final m c), (h c).2⟩)
      (Cert.KernelIdeal.ValueP.run_blocks m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    obtain ⟨h4, h5, h6, h7, h8⟩ := Cert.Pre_finite_inputs.Finite.channel_facts _ _ _ _ _ _ _ _ _ _ _ (hpre c)
    rw [Cert.ReferenceIdeal.Read.val_main_v40_eq, e0, e1, e2, e3, e4, e5, e6, e7, e8, e9, e10,
      Cert.ReferenceIdeal.RefValue.result_eq _ _ _ _ _ _ _ _ _ _ _ h4 h6 h7
        (fun f => scale_real _ _ _ (h5 f) (h8 f)), role_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
